-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big_2" .f32 0xEFA18F08#32 ⊥
  ∧ IdealRules.named_const.Statement Cert.KernelIdeal.κ "pos_big_2" .f32 0x6FA18F08#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_30 : BitVec 32 := 0#32
  let v64 : BitVec 1 := Scalar.cmpi .ne v63 c0_i32_30
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  natLt_1_32 : 1 < 32
  shapeCasts_S8192x1_S8192 : S8192x1.ShapeCasts S8192
  reducesTo_S8192_S_d0 : S8192.ReducesTo [0] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .i1⟩
  | .hbm, ⟨57, _⟩ => ⟨S8192, .i1⟩
  | .hbm, ⟨58, _⟩ => ⟨S_, .i1⟩
  | .hbm, ⟨59, _⟩ => ⟨S8192, .i1⟩
  | .hbm, ⟨60, _⟩ => ⟨S8192, .i1⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_cst_9 : Ref sig .tc := ⟨.hbm, 50, rfl⟩
abbrev main_call3_v0 : Ref sig .tc := ⟨.hbm, 51, rfl⟩
abbrev main_call3_v1 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_c : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_call4_v0 : Ref sig .tc := ⟨.hbm, 69, rfl⟩
abbrev main_call4_v1 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_cst_17 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KIState.lean ====
import proofs.«155192_j82746839925071_2_alg».proof.Proof.Gen.KernelIdeal.Launch
import proofs.«155192_j82746839925071_2_alg».proof.Proof.Gen.KernelIdeal.Skeleton
import proofs.«155192_j82746839925071_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: after the seven host operations before it (the rows'
    squared norms, and the norms and the labels each laid out as a column and as a row). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes at a point, and what the two running buffers hold after it -/

/-- The tile of clamped squared distances at point `t` (anchor rows of the point's row block against key rows of its
    column block), the tile of label agreements, and the tile marking the global diagonal. -/
def d2At (c : Dev nD) (t : Fin cfg0.N) : FVec F S1024x1024 .f32 := k0_pay8 (iblk m c 0 t) (iblk m c 1 t) (iblk m c 2 t) (iblk m c 3 t)
def sameAt (c : Dev nD) (t : Fin cfg0.N) : IVec S1024x1024 1 := k0_pay9 (F := F) (iblk m c 4 t) (iblk m c 5 t)
def diagAt (t : Fin cfg0.N) : IVec S1024x1024 1 := k0_pay10 (grid0.coords t)

/-- The running maximum over positives and the running minimum over negatives after the body at position `n`: at the
    first point of a row of the grid they restart from the two fills, elsewhere they continue from the point before. -/
def scrAt (c : Dev nD) : (n : ℕ) → n < cfg0.N → FVec F S1024x1 .f32 × FVec F S1024x1 .f32
  | 0, hn => (k0_pay1 (d2At m c ⟨0, hn⟩) (sameAt m c ⟨0, hn⟩) (diagAt ⟨0, hn⟩) (k0_pay6 (F := F)),
              k0_pay2 (d2At m c ⟨0, hn⟩) (sameAt m c ⟨0, hn⟩) (k0_pay7 (F := F)))
  | n + 1, hn =>
    if (n + 1) % 8 = 0 then
      (k0_pay1 (d2At m c ⟨n + 1, hn⟩) (sameAt m c ⟨n + 1, hn⟩) (diagAt ⟨n + 1, hn⟩) (k0_pay6 (F := F)),
       k0_pay2 (d2At m c ⟨n + 1, hn⟩) (sameAt m c ⟨n + 1, hn⟩) (k0_pay7 (F := F)))
    else
      (k0_pay1 (d2At m c ⟨n + 1, hn⟩) (sameAt m c ⟨n + 1, hn⟩) (diagAt ⟨n + 1, hn⟩) (scrAt c n (Nat.lt_of_succ_lt hn)).1,
       k0_pay2 (d2At m c ⟨n + 1, hn⟩) (sameAt m c ⟨n + 1, hn⟩) (scrAt c n (Nat.lt_of_succ_lt hn)).2)

/-- The rows' hinge terms and counts the body stores at the last point of a row of the grid, from the two running
    buffers there. -/
def perAt (c : Dev nD) (t : Fin cfg0.N) : FVec F S1024x1 .f32 :=
  k0_pay4 (scrAt m c t.val t.isLt).1 (scrAt m c t.val t.isLt).2 (scrAt m c t.val t.isLt).1 (scrAt m c t.val t.isLt).2
def cntAt (c : Dev nD) (t : Fin cfg0.N) : FVec F S1024x1 .f32 :=
  k0_pay5 (scrAt m c t.val t.isLt).1 (scrAt m c t.val t.isLt).2

theorem scrAt_first (c : Dev nD) (t : Fin cfg0.N) (h : t.val % 8 = 0) :
    scrAt m c t.val t.isLt = (k0_pay1 (d2At m c t) (sameAt m c t) (diagAt t) (k0_pay6 (F := F)), k0_pay2 (d2At m c t) (sameAt m c t) (k0_pay7 (F := F))) := by
  obtain ⟨n, hn⟩ := t
  cases n with
  | zero => rfl
  | succ n => exact (if_pos h).trans rfl

theorem scrAt_next (c : Dev nD) (t : Fin cfg0.N) (h : ¬ t.val % 8 = 0) :
    scrAt m c t.val t.isLt = (k0_pay1 (d2At m c t) (sameAt m c t) (diagAt t) (scrAt m c (t.val - 1) (Nat.lt_of_le_of_lt (Nat.sub_le _ _) t.isLt)).1,
      k0_pay2 (d2At m c t) (sameAt m c t) (scrAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The proof data -/

/-- The two buffers the kernel keeps between points. -/
abbrev scM0 : Memref sig .tc .vmem S1024x1 .f32 := Memref.whole cc0_scratch0
abbrev scM1 : Memref sig .tc .vmem S1024x1 .f32 := Memref.whole cc0_scratch1

/-- The invariant before position `n`: before the first point the two kept buffers hold anything; afterwards the
    running maximum and minimum the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scrAt m c n hn).1 ∗ owns (c : Thread nD τ) scM1 fullShare (scrAt m c n hn).2)

/-- The proof data on core `c`: the arrays as the region finds them; after the body each input's buffer at its block and
    the two outputs' at the hinge terms and the counts; the embeddings' array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => perAt m c t
    | ⟨7, _⟩ => cntAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

end Cert.KernelIdeal.Hand

end
-- ==== Proof.KICond.lean ====
import proofs.«155192_j82746839925071_2_alg».proof.Proof.KIState
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, decided over the grid -/

/-- The point is the first of its row of the grid (the running buffers restart); the point is the last of its row (the
    rows' results are stored). -/
abbrev condFirst (i : grid0.Coords) : Prop := (Scalar.cmpi .ne (Scalar.extui (Scalar.cmpi .eq (BitVec.ofNat 32 (i 1).val) 0#32)) 0#32) = 1#1
abbrev condLast (i : grid0.Coords) : Prop := k0_cond2 i = 1#1

theorem hFirst : ∀ t : Fin cfg0.N, condFirst (grid0.coords t) ↔ t.val % 8 = 0 :=
  (by decide +kernel : ∀ t : Fin grid0.N, condFirst (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)

/-- The two outputs are idle, and not written back, at every point but the last of a row; live there. -/
theorem idle6 : ∀ t : Fin cfg0.N, ¬condLast (grid0.coords t) → cfg0.idle 6 (grid0.coords t) = true := by decide +kernel
theorem idle7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
theorem live6 : ∀ t : Fin cfg0.N, condLast (grid0.coords t) → cfg0.idle 6 (grid0.coords t) = false := by decide +kernel
theorem live7 : ∀ t : Fin cfg0.N, condLast (grid0.coords t) → cfg0.idle 7 (grid0.coords t) = false := by decide +kernel

/-! ## Whole-buffer loads and stores -/

theorem hz2 : (![0, 0] : Fin 2 → ℕ) = fun _ => 0 := by funext a; fin_cases a <;> rfl

/-- After a list of stores whose LAST one fills the whole buffer, the buffer reads that store's value. -/
theorem read_last_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

end Cert.KernelIdeal.Hand

end
-- ==== Proof.KIRunFirst.lean ====
import proofs.«155192_j82746839925071_2_alg».proof.Proof.KICond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At the first point of a row of the grid: the two kept buffers are filled, then updated with the tile's row maxima and minima; the outputs' buffers are not touched. -/
theorem run_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : condFirst i) (h2 : ¬condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare y8
            ∗ owns (c : Thread nD τ) arg9 fullShare y9
            ∗ owns (c : Thread nD τ) arg10 fullShare (k0_pay1 (k0_pay8 x2 x3 x4 x5) (k0_pay9 (F := F) x6 x7) (k0_pay10 i) (k0_pay6 (F := F)))
            ∗ owns (c : Thread nD τ) arg11 fullShare (k0_pay2 (k0_pay8 x2 x3 x4 x5) (k0_pay9 (F := F) x6 x7) (k0_pay7 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro; exact harg8.read_unread _
  isplitl [H9]
  · iexists _; isplitr; swap; (· iexact H9)
    ipureintro; exact harg9.read_unread _
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.KernelIdeal.Hand

end
-- ==== Proof.KIRunMid.lean ====
import proofs.«155192_j82746839925071_2_alg».proof.Proof.KICond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At a point that is neither first nor last of its row of the grid: the two kept buffers are updated with the tile's row maxima and minima; the outputs' buffers are not touched. -/
theorem run_mid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : ¬condFirst i) (h2 : ¬condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare y8
            ∗ owns (c : Thread nD τ) arg9 fullShare y9
            ∗ owns (c : Thread nD τ) arg10 fullShare (k0_pay1 (k0_pay8 x2 x3 x4 x5) (k0_pay9 (F := F) x6 x7) (k0_pay10 i) s0)
            ∗ owns (c : Thread nD τ) arg11 fullShare (k0_pay2 (k0_pay8 x2 x3 x4 x5) (k0_pay9 (F := F) x6 x7) s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro; exact harg8.read_unread _
  isplitl [H9]
  · iexists _; isplitr; swap; (· iexact H9)
    ipureintro; exact harg9.read_unread _
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.KernelIdeal.Hand

end
-- ==== Proof.KIRunLast.lean ====
import proofs.«155192_j82746839925071_2_alg».proof.Proof.KICond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- At the last point of a row of the grid: the two kept buffers are updated, and the rows' hinge terms and counts, computed from them, are stored into the two outputs' buffers. -/
theorem run_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : ¬condFirst i) (h2 : condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare (k0_pay4 (k0_pay1 (k0_pay8 x2 x3 x4 x5) (k0_pay9 (F := F) x6 x7) (k0_pay10 i) s0) (k0_pay2 (k0_pay8 x2 x3 x4 x5) (k0_pay9 (F := F) x6 x7) s1) (k0_pay1 (k0_pay8 x2 x3 x4 x5) (k0_pay9 (F := F) x6 x7) (k0_pay10 i) s0) (k0_pay2 (k0_pay8 x2 x3 x4 x5) (k0_pay9 (F := F) x6 x7) s1))
            ∗ owns (c : Thread nD τ) arg9 fullShare (k0_pay5 (k0_pay1 (k0_pay8 x2 x3 x4 x5) (k0_pay9 (F := F) x6 x7) (k0_pay10 i) s0) (k0_pay2 (k0_pay8 x2 x3 x4 x5) (k0_pay9 (F := F) x6 x7) s1))
            ∗ owns (c : Thread nD τ) arg10 fullShare (k0_pay1 (k0_pay8 x2 x3 x4 x5) (k0_pay9 (F := F) x6 x7) (k0_pay10 i) s0)
            ∗ owns (c : Thread nD τ) arg11 fullShare (k0_pay2 (k0_pay8 x2 x3 x4 x5) (k0_pay9 (F := F) x6 x7) s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  isplitl [H9]
  · iexists _; isplitr; swap; (· iexact H9)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.KernelIdeal.Hand

end
-- ==== Proof.KIOblig.lean ====
import proofs.«155192_j82746839925071_2_alg».proof.Proof.KIRunFirst
import proofs.«155192_j82746839925071_2_alg».proof.Proof.KIRunMid
import proofs.«155192_j82746839925071_2_alg».proof.Proof.KIRunLast
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The proof data, projected -/

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
/-- Input window 0's buffer holds its block at every point, fetched there or not (unfetched, the block index has not moved). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
/-- Input window 1's buffer holds its block at every point, fetched there or not (unfetched, the block index has not moved). -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
/-- Input window 2's buffer holds its block at every point, fetched there or not (unfetched, the block index has not moved). -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
/-- Input window 3's buffer holds its block at every point, fetched there or not (unfetched, the block index has not moved). -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
/-- Input window 4's buffer holds its block at every point, fetched there or not (unfetched, the block index has not moved). -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = iblk m c 5 t := by dsimp only [dats]
/-- Input window 5's buffer holds its block at every point, fetched there or not (unfetched, the block index has not moved). -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem after6 (c : Dev nD) (t : Fin cfg0.N) : (dats m 0 c).after 6 t = perAt m c t := by dsimp only [dats]
theorem after7 (c : Dev nD) (t : Fin cfg0.N) : (dats m 0 c).after 7 t = cntAt m c t := by dsimp only [dats]

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare (scrAt m c n hn).1 ∗ owns (c : Thread nD τ) scM1 fullShare (scrAt m c n hn).2) := rfl
theorem PhiS_pos (c : Dev nD) (n : ℕ) (h : n ≤ cfg0.N) (hz : n ≠ 0) :
    PhiS m c n h = iprop(owns (c : Thread nD τ) scM0 fullShare (scrAt m c (n - 1) (by omega)).1 ∗ owns (c : Thread nD τ) scM1 fullShare (scrAt m c (n - 1) (by omega)).2) := by
  cases n with
  | zero => exact absurd rfl hz
  | succ n => rfl
theorem Phi_castSucc (c : Dev nD) (t : Fin cfg0.N) : (dats m 0 c).Φ t.castSucc = PhiS m c t.val (Nat.le_of_lt t.isLt) := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' buffers hold their blocks; the point's position in its row of the grid says which
    of the three runs applies; the invariant hands the body the two kept buffers at what the point before left (at
    anything before the very first point) and takes them back at this point's contents; an output's buffer comes back
    untouched except at the last point of a row, where it holds the rows' results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (win0_0.stage (cfg0.slots t 0)) fullShare ((dats m 0 c).after 0 t) from rfl, after0]
  rw [show (dats m 0 c).leavesExact 1 t = owns (c : Thread nD τ) (win0_1.stage (cfg0.slots t 1)) fullShare ((dats m 0 c).after 1 t) from rfl, after1]
  rw [show (dats m 0 c).leavesExact 2 t = owns (c : Thread nD τ) (win0_2.stage (cfg0.slots t 2)) fullShare ((dats m 0 c).after 2 t) from rfl, after2]
  rw [show (dats m 0 c).leavesExact 3 t = owns (c : Thread nD τ) (win0_3.stage (cfg0.slots t 3)) fullShare ((dats m 0 c).after 3 t) from rfl, after3]
  rw [show (dats m 0 c).leavesExact 4 t = owns (c : Thread nD τ) (win0_4.stage (cfg0.slots t 4)) fullShare ((dats m 0 c).after 4 t) from rfl, after4]
  rw [show (dats m 0 c).leavesExact 5 t = owns (c : Thread nD τ) (win0_5.stage (cfg0.slots t 5)) fullShare ((dats m 0 c).after 5 t) from rfl, after5]
  by_cases h0 : t.val % 8 = 0
  · have hf : condFirst (grid0.coords t) := (hFirst t).mpr h0
    have hl : ¬condLast (grid0.coords t) := fun h => by have := (hLast t).mp h; omega
    rw [Dat.leavesExact_idle (dats m 0 c) 6 t (idle6 t hl) (noFlush6 t hl), Dat.leavesExact_idle (dats m 0 c) 7 t (idle7 t hl) (noFlush7 t hl)]
    rw [scrAt_first m c t h0]
    unfold d2At sameAt diagAt; dsimp only
    by_cases hz : t.val = 0
    · rw [Phi_castSucc m c t, PhiS_zero m c _ _ hz]
      iintro ⟨⟨⟨%e0, HS0⟩, ⟨%e1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hf : ¬condFirst (grid0.coords t) := fun h => h0 ((hFirst t).mp h)
    have hz : t.val ≠ 0 := fun h => h0 (by rw [h])
    rw [Phi_castSucc m c t, PhiS_pos m c _ _ hz]
    by_cases h7 : t.val % 8 = 7
    · have hl : condLast (grid0.coords t) := (hLast t).mpr h7
      rw [show (dats m 0 c).leavesExact 6 t = owns (c : Thread nD τ) (win0_6.stage (cfg0.slots t 6)) fullShare ((dats m 0 c).after 6 t) from by
        unfold Dat.leavesExact; rw [live6 t hl], after6]
      rw [show (dats m 0 c).leavesExact 7 t = owns (c : Thread nD τ) (win0_7.stage (cfg0.slots t 7)) fullShare ((dats m 0 c).after 7 t) from by
        unfold Dat.leavesExact; rw [live7 t hl], after7]
      unfold perAt cntAt
      rw [scrAt_next m c t h0]
      unfold d2At sameAt diagAt; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hl : ¬condLast (grid0.coords t) := fun h => h7 ((hLast t).mp h)
      rw [Dat.leavesExact_idle (dats m 0 c) 6 t (idle6 t hl) (noFlush6 t hl), Dat.leavesExact_idle (dats m 0 c) 7 t (idle7 t hl) (noFlush7 t hl)]
      rw [scrAt_next m c t h0]
      unfold d2At sameAt diagAt; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIEntry.lean ====
import proofs.«155192_j82746839925071_2_alg».proof.Proof.KIState
import Idealize.ShloMosaic.Lib.Pipeline.FrameBody
import Idealize.ShloMosaic.Lib.Pipeline.Regions
import Idealize.ShloMosaic.Lib.Tactic
import Idealize.ShloMosaic.Lib.Pipeline.Value
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The seven buffers behind the eight windows -/

/-- The distinct buffers behind the windows' arrays, one by one: the embeddings (read by two windows), the squared
    norms as a column and as a row, the labels as a column and as a row, and the two results. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) := by
  unfold Pipeline.arrBufs
  exact bigSep_eq_bigSepL_of_eq [main_arg0, main_v2, main_v3, main_v4, main_v5, main_v6_0, main_v6_1] (by decide) (by decide) _

/-- The proof data's arrays, window by window, each at its share: the embeddings' buffer by halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6_0) ↦{fullShare} G 6) ∗ (((c : Thread nD τ).loc main_v6_1) ↦{fullShare} G 7)) := by
  have e : ∀ w : Fin cfg0.W, ((cfg0.win w).arr.view.loc (c : Thread nD τ) ↦[(cfg0.win w).arr.view.set]{(dats m 0 c).share w} G w : sProp 𝕄)
      = (((c : Thread nD τ).loc (Pipeline.arrRef spec0 w)) ↦{(dats m 0 c).share w} G w) := fun w => by rw [(arr_whole0 w).set_eq_univ]
  unfold Dat.arrays
  rw [bigSep_W0, e 0, e 1, e 2, e 3, e 4, e 5, e 6, e 7]
  rfl

/-! ## Entering and leaving the region -/

/-- ENTRY: a core's unscoped buffers at the region-entry contents are the proof data's arrays at entry — the embeddings'
    buffer split into its two halves, one per window reading it — and the buffers that bypass the region. -/
theorem entry_split (c : Dev nD) :
    (unscopedBufs (Ix := Unit) (Name := ℕ) (U := UR sig nD τ) (Lvl := ℕ) c (V m c) : sProp 𝕄)
      ⊢ iprop((dats m 0 c).arrays ((dats m 0 c).arrAt · 0) ∗ Pipeline.unscopedRest spec0 c (V m c)) := by
  rw [Pipeline.unscopedBufs_split₀ cfgs (0 : Fin 1) winFacts₀0.arr_unscoped c (V m c), arrBufs0_eq, arrays0_eq]
  iintro ⟨⟨H0, H2, H3, H4, H5, H6, H7⟩, Hr⟩
  ihave H0' := (pointsTo_share (PosShare.mem_left_op_right fullShare)).1 $$ H0
  icases H0' with ⟨H0l, H0r⟩
  isplitr [Hr]; swap; · iexact Hr
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

open Classical in
/-- The buffers' contents when the region is left: the two results at what the pipeline wrote back, every other buffer
    as the region found it. -/
def V1 (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

theorem V1_v6_0 (c : Dev nD) : V1 m c (Proc.devRef .tc main_v6_0) = (dats m 0 c).arrAt 6 cfg0.N := by
  unfold V1; rw [Function.update_of_ne (StableHlo.devRef_ne_of_ne (by decide)), Function.update_self]
theorem V1_v6_1 (c : Dev nD) : V1 m c (Proc.devRef .tc main_v6_1) = (dats m 0 c).arrAt 7 cfg0.N := by
  unfold V1; rw [Function.update_self]
theorem V1_other (c : Dev nD) (b : Ref sig .tc) (h0 : b ≠ main_v6_0) (h1 : b ≠ main_v6_1) :
    V1 m c (Proc.devRef .tc b) = V m c b := by
  unfold V1; rw [Function.update_of_ne (StableHlo.devRef_ne_of_ne h1), Function.update_of_ne (StableHlo.devRef_ne_of_ne h0)]

/-- An input's array ends as the region found it. -/
theorem fin0 (c : Dev nD) : (dats m 0 c).arrAt 0 cfg0.N = V m c main_arg0 := (dats m 0 c).arrAt_in 0 rfl _
theorem fin1 (c : Dev nD) : (dats m 0 c).arrAt 1 cfg0.N = V m c main_arg0 := (dats m 0 c).arrAt_in 1 rfl _
theorem fin2 (c : Dev nD) : (dats m 0 c).arrAt 2 cfg0.N = V m c main_v2 := (dats m 0 c).arrAt_in 2 rfl _
theorem fin3 (c : Dev nD) : (dats m 0 c).arrAt 3 cfg0.N = V m c main_v3 := (dats m 0 c).arrAt_in 3 rfl _
theorem fin4 (c : Dev nD) : (dats m 0 c).arrAt 4 cfg0.N = V m c main_v4 := (dats m 0 c).arrAt_in 4 rfl _
theorem fin5 (c : Dev nD) : (dats m 0 c).arrAt 5 cfg0.N = V m c main_v5 := (dats m 0 c).arrAt_in 5 rfl _

set_option maxHeartbeats 2000000 in
/-- EXIT: the arrays at their final contents — the inputs as they were, the embeddings' two halves joined again, the
    two results as written back — and the bypassing buffers are the core's unscoped buffers at the exit contents. -/
theorem exit_join (c : Dev nD) :
    iprop((dats m 0 c).arrays ((dats m 0 c).arrAt · cfg0.N) ∗ Pipeline.unscopedRest spec0 c (V m c))
      ⊢ (unscopedBufs (Ix := Unit) (Name := ℕ) (U := UR sig nD τ) (Lvl := ℕ) c (fun b => V1 m c (Proc.devRef .tc b)) : sProp 𝕄) := by
  rw [Pipeline.unscopedBufs_split₀ cfgs (0 : Fin 1) winFacts₀0.arr_unscoped c (fun b => V1 m c (Proc.devRef .tc b)), arrBufs0_eq, arrays0_eq,
    unscopedRest0_eq, unscopedRest0_eq]
  rw [V1_v6_0, V1_v6_1]
  rw [V1_other m c main_arg0 (by decide) (by decide), V1_other m c main_v2 (by decide) (by decide), V1_other m c main_v3 (by decide) (by decide),
    V1_other m c main_v4 (by decide) (by decide), V1_other m c main_v5 (by decide) (by decide),
    V1_other m c main_arg1 (by decide) (by decide), V1_other m c main_v0 (by decide) (by decide), V1_other m c main_cst (by decide) (by decide),
    V1_other m c main_v1 (by decide) (by decide), V1_other m c main_v7 (by decide) (by decide), V1_other m c main_v8 (by decide) (by decide),
    V1_other m c main_cst_0 (by decide) (by decide), V1_other m c main_v9 (by decide) (by decide), V1_other m c main_cst_1 (by decide) (by decide),
    V1_other m c main_v10 (by decide) (by decide), V1_other m c main_cst_2 (by decide) (by decide), V1_other m c main_v11 (by decide) (by decide),
    V1_other m c main_v12 (by decide) (by decide)]
  rw [fin0 m c, fin1 m c, fin2 m c, fin3 m c, fin4 m c, fin5 m c]
  iintro ⟨⟨H0l, H0r, H2, H3, H4, H5, H6, H7⟩, Hr⟩
  ihave H0 := (pointsTo_share (PosShare.mem_left_op_right fullShare)).2 $$ [H0l H0r]
  · isplitl [H0l]; · iexact H0l
    iexact H0r
  isplitr [Hr]; swap; · iexact Hr
  isplitl [H0]; · iexact H0
  isplitl [H2]; · iexact H2
  isplitl [H3]; · iexact H3
  isplitl [H4]; · iexact H4
  isplitl [H5]; · iexact H5
  isplitl [H6]; · iexact H6
  iexact H7

end Cert.KernelIdeal.Hand

end
-- ==== Proof.KILaunch.lean ====
import proofs.«155192_j82746839925071_2_alg».proof.Proof.KIOblig
import proofs.«155192_j82746839925071_2_alg».proof.Proof.KIEntry
import Idealize.ShloMosaic.Lib.Pipeline.FrameBody
import Idealize.ShloMosaic.Lib.Pipeline.Regions
import Idealize.ShloMosaic.Lib.Tactic
import Idealize.ShloMosaic.Lib.Pipeline.Value
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch's fixed choices -/

/-- The pipeline library's algebra is the whole of the certificate's. -/
abbrev EP : Emb (UR sig nD τ) (MT nD τ sig Unit (Elt F) ℕ (UR sig nD τ) ℕ) := emb₁
/-- No core owes another anything: no level is assigned. -/
abbrev Lvs : GSem nD τ sig → Finset Unit := fun _ => ∅
abbrev lvs : GSem nD τ sig → Unit → ℕ := fun _ _ => 0
/-- No prefetched table. -/
abbrev adm : (p : Fin 1) → (pcfgs (F := F) p).Adm := fun p => (cfgs p).toPCfg_adm
abbrev 𝒱₀ : Variants := Variants.none
/-- What rides beside the buffers through every segment: the core owing nothing. -/
abbrev Rr (c : Dev nD) : sProp 𝕄 := iprop(∃ W, owes (c : Thread nD τ) (0 : CellTallies nD τ sig Unit) W)
/-- Core `c`'s buffers at launch, as the host operations' valuation. -/
abbrev L0 (c : Dev nD) : Valuation τ sig (Elt F) := fun b => m (c, b)
/-- The TensorCore's unscoped buffers: the set the host operations run within. -/
abbrev ucR : Finset (DevRef τ sig) := Pipeline.ucRefs τ sig

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- No host operation before the region writes a buffer other than its own result. -/
theorem notw0 (b : Ref sig .tc) (hb : b ≠ main_v0 ∧ b ≠ main_cst ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›
/-- Nor does one after it. -/
theorem notw1 (b : Ref sig .tc) (hb : b ≠ main_v7 ∧ b ≠ main_v8 ∧ b ≠ main_cst_0 ∧ b ≠ main_v9 ∧ b ≠ main_cst_1 ∧ b ≠ main_v10 ∧ b ≠ main_cst_2 ∧ b ≠ main_v11 ∧ b ≠ main_v12) :
    ∀ op ∈ (hostOps1 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The two arguments reach the end as launched. -/
theorem end_arg0 (c : Dev nD) : StableHlo.after hostOps1 (V1 m c) (Proc.devRef .tc main_arg0) = m ((c : Thread nD τ).loc main_arg0) :=
  (StableHlo.after_of_forall_not_mem (b := Proc.devRef .tc main_arg0) hostOps1 (V1 m c) (notw1 main_arg0 (by decide))).trans
    ((V1_other m c main_arg0 (by decide) (by decide)).trans
      (StableHlo.after_of_forall_not_mem (b := Proc.devRef .tc main_arg0) hostOps0 (L0 m c) (notw0 main_arg0 (by decide))))
theorem end_arg1 (c : Dev nD) : StableHlo.after hostOps1 (V1 m c) (Proc.devRef .tc main_arg1) = m ((c : Thread nD τ).loc main_arg1) :=
  (StableHlo.after_of_forall_not_mem (b := Proc.devRef .tc main_arg1) hostOps1 (V1 m c) (notw1 main_arg1 (by decide))).trans
    ((V1_other m c main_arg1 (by decide) (by decide)).trans
      (StableHlo.after_of_forall_not_mem (b := Proc.devRef .tc main_arg1) hostOps0 (L0 m c) (notw0 main_arg1 (by decide))))

/-! ## @main as three segments -/

/-- The seven host operations before the region, over the unscoped buffers. -/
def seg0 : Pipeline.HostSeg (Name := ℕ) (U := UR sig nD τ) (pcfgs (F := F)) defs₀ 𝒱₀ Lvs lvs :=
  Pipeline.HostSeg.ofOps _ _ _ _ _ ucR hostOps0 (fun op h => Pipeline.sub_ucRefs op ((List.forall_iff_forall_mem.mp hostOps0_sub) op h))
    fresh0 (L0 m) Rr

/-- The nine host operations after it, from the buffers as the region leaves them. -/
def seg1 : Pipeline.HostSeg (Name := ℕ) (U := UR sig nD τ) (pcfgs (F := F)) defs₀ 𝒱₀ Lvs lvs :=
  Pipeline.HostSeg.ofOps _ _ _ _ _ ucR hostOps1 (fun op h => Pipeline.sub_ucRefs op ((List.forall_iff_forall_mem.mp hostOps1_sub) op h))
    fresh1 (V1 m) Rr

set_option backward.isDefEq.respectTransparency.types false in
/-- The region: the decided layout (two windows on one array), no semaphore of the kernel's own, the body obligation;
    entered from what the first segment left — the arrays into the pipeline, the embeddings' buffer by halves, every
    other unscoped buffer bypassing —, left with the two results written back and the halves joined. -/
def reg0 : Pipeline.RegionSeg (pcfgs (F := F)) adm (dats m) () defs₀ 𝒱₀ Lvs lvs 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lvs lvs 0 fun _ _ => rfl
  pre c := iprop(StableHlo.held (c : Thread nD τ) ucR (StableHlo.after hostOps0 (L0 m c)) ∗ Rr c)
  post c := iprop(StableHlo.held (c : Thread nD τ) ucR (V1 m c) ∗ Rr c)
  X _ := iprop(emp)
  Y _ := iprop(emp)
  Z c := Pipeline.unscopedRest spec0 c (V m c)
  hentry c := by
    rw [show StableHlo.held (c : Thread nD τ) ucR (StableHlo.after hostOps0 (L0 m c)) = unscopedBufs c (V m c) from (Pipeline.unscopedBufs_held c _).symm]
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [scM0, scM1, owns_whole]
    iintro ⟨-, -, H⟩
    iexact H
  hout c := by
    rw [Pipeline.ownSems0_none, show (dats m 0 c).Φ (Fin.last cfg0.N) = PhiS m c cfg0.N (le_refl _) from rfl,
      PhiS_pos m c _ _ (by rw [show cfg0.N = 64 from N_0]; decide), scopedRest0_eq]
    simp only [scM0, scM1, owns_whole]
    iintro ⟨H0, H1⟩
    isplitr; · iempintro
    isplitr; · iempintro
    isplitl [H0]; · iexists _; iexact H0
    iexists _; iexact H1
  hexit c := by
    rw [show StableHlo.held (c : Thread nD τ) ucR (V1 m c) = unscopedBufs c (fun b => V1 m c (Proc.devRef .tc b)) from (Pipeline.unscopedBufs_held c _).symm]
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lvs lvs) := [.host (seg0 m), .region (reg0 m), .host (seg1 m)]

/-- The launch element: the pipeline library's at the staging cells. -/
def u₀ : UR sig nD τ := initOf (Pipeline.cells cfgs cellOf_inj) (Pipeline.launchToks cfgs cellOf_inj)

/-- What every final state holds: the result at the host tail's value of the buffers the region left, the two
    arguments as launched. -/
def QC : PUnit × MemSt nD τ sig (Elt F) → Prop := fun r =>
  ∀ c : Dev nD, r.2.mem ((c : Thread nD τ).loc main_v12) = StableHlo.after hostOps1 (V1 m c) (Proc.devRef .tc main_v12)
    ∧ r.2.mem ((c : Thread nD τ).loc main_arg0) = m ((c : Thread nD τ).loc main_arg0)
    ∧ r.2.mem ((c : Thread nD τ).loc main_arg1) = m ((c : Thread nD τ).loc main_arg1)

theorem mem_ucR (b : Ref sig .tc) (h : (Proc.devRef .tc b : DevRef τ sig).isScoped = false) :
    (Proc.devRef .tc b : DevRef τ sig) ∈ (ucR : Finset (DevRef τ sig)) := by
  unfold ucR Pipeline.ucRefs StableHlo.tcRefs
  exact Finset.mem_filter.mpr ⟨Finset.mem_map.mpr ⟨b, Finset.mem_univ _, rfl⟩, by rw [h]; exact Bool.false_ne_true⟩

set_option backward.isDefEq.respectTransparency.types false in
/-- At the compiled mesh, from any memory with zero counters: every weakly fair execution of @main on the TensorCores
    terminates, nothing faulting, and every final state has the result at the host tail's value of what the region
    left and both arguments as launched. -/
theorem run_main : θ_run defs (onTc (τ := τ) (main (F := F))) (s₀ m ρ) (QC m) :=
  Pipeline.θ_run_regions_kit (pcfgs (F := F)) adm (dats m) () cellOf_inj EP defs₀ 𝒱₀ Lvs lvs m ρ main (segs m)
    (fun c Q => by rw [main_segs adm (dats m) () 𝒱₀ Lvs lvs (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (L0 m c) ∗ Rr c))
    (Tₙ := fun c => StableHlo.held (c : Thread nD τ) ucR (StableHlo.after hostOps1 (V1 m c)))
    (hch := ⟨fun _ => .rfl, fun _ => .rfl, fun _ => .rfl, fun _ => .rfl⟩)
    (hinit := by
      refine Pipeline.initEach Lvs lvs fun c => ?_
      rw [show unscopedBufs c (fun b => m ((c : Thread nD τ).loc b)) = StableHlo.held (c : Thread nD τ) ucR (L0 m c) from Pipeline.unscopedBufs_held c (L0 m c)]
      iintro ⟨⟨Hh, -, HO, -, -, -⟩, -⟩
      imodintro
      isplitl [Hh]; · iexact Hh
      iexists ∅; iexact HO)
    (QY := fun c s => s.mem ((c : Thread nD τ).loc main_v12) = StableHlo.after hostOps1 (V1 m c) (Proc.devRef .tc main_v12)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all ucR (fun b => ((c : Thread nD τ).1, b)) (StableHlo.after hostOps1 (V1 m c)) s') $$ [Hh HSI]
      · isplitl [Hh] <;> iassumption
      icases Hr with ⟨%ha, HSI⟩
      imodintro
      isplitr
      · ipureintro
        exact ⟨ha _ (mem_ucR main_v12 rfl), (ha _ (mem_ucR main_arg0 rfl)).trans (end_arg0 m c), (ha _ (mem_ucR main_arg1 rfl)).trans (end_arg1 m c)⟩
      iexact HSI)
    (hQ := fun _ h => h)

end Cert.KernelIdeal.Hand

end
-- ==== Proof.KBState.lean ====
import proofs.«155192_j82746839925071_2_alg».proof.Proof.Gen.Kernel.Launch
import proofs.«155192_j82746839925071_2_alg».proof.Proof.Gen.Kernel.Skeleton
import proofs.«155192_j82746839925071_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: after the seven host operations before it (the rows'
    squared norms, and the norms and the labels each laid out as a column and as a row). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body computes at a point, and what the two running buffers hold after it -/

/-- The tile of clamped squared distances at point `t` (anchor rows of the point's row block against key rows of its
    column block), the tile of label agreements, and the tile marking the global diagonal. -/
def d2At (c : Dev nD) (t : Fin cfg0.N) : FVec F S1024x1024 .f32 := k0_pay8 (iblk m c 0 t) (iblk m c 1 t) (iblk m c 2 t) (iblk m c 3 t)
def sameAt (c : Dev nD) (t : Fin cfg0.N) : IVec S1024x1024 1 := k0_pay9 (F := F) (iblk m c 4 t) (iblk m c 5 t)
def diagAt (t : Fin cfg0.N) : IVec S1024x1024 1 := k0_pay10 (grid0.coords t)

/-- The running maximum over positives and the running minimum over negatives after the body at position `n`: at the
    first point of a row of the grid they restart from the two fills, elsewhere they continue from the point before. -/
def scrAt (c : Dev nD) : (n : ℕ) → n < cfg0.N → FVec F S1024x1 .f32 × FVec F S1024x1 .f32
  | 0, hn => (k0_pay1 (d2At m c ⟨0, hn⟩) (sameAt m c ⟨0, hn⟩) (diagAt ⟨0, hn⟩) (k0_pay6 (F := F)),
              k0_pay2 (d2At m c ⟨0, hn⟩) (sameAt m c ⟨0, hn⟩) (k0_pay7 (F := F)))
  | n + 1, hn =>
    if (n + 1) % 8 = 0 then
      (k0_pay1 (d2At m c ⟨n + 1, hn⟩) (sameAt m c ⟨n + 1, hn⟩) (diagAt ⟨n + 1, hn⟩) (k0_pay6 (F := F)),
       k0_pay2 (d2At m c ⟨n + 1, hn⟩) (sameAt m c ⟨n + 1, hn⟩) (k0_pay7 (F := F)))
    else
      (k0_pay1 (d2At m c ⟨n + 1, hn⟩) (sameAt m c ⟨n + 1, hn⟩) (diagAt ⟨n + 1, hn⟩) (scrAt c n (Nat.lt_of_succ_lt hn)).1,
       k0_pay2 (d2At m c ⟨n + 1, hn⟩) (sameAt m c ⟨n + 1, hn⟩) (scrAt c n (Nat.lt_of_succ_lt hn)).2)

/-- The rows' hinge terms and counts the body stores at the last point of a row of the grid, from the two running
    buffers there. -/
def perAt (c : Dev nD) (t : Fin cfg0.N) : FVec F S1024x1 .f32 :=
  k0_pay4 (scrAt m c t.val t.isLt).1 (scrAt m c t.val t.isLt).2 (scrAt m c t.val t.isLt).1 (scrAt m c t.val t.isLt).2
def cntAt (c : Dev nD) (t : Fin cfg0.N) : FVec F S1024x1 .f32 :=
  k0_pay5 (scrAt m c t.val t.isLt).1 (scrAt m c t.val t.isLt).2

theorem scrAt_first (c : Dev nD) (t : Fin cfg0.N) (h : t.val % 8 = 0) :
    scrAt m c t.val t.isLt = (k0_pay1 (d2At m c t) (sameAt m c t) (diagAt t) (k0_pay6 (F := F)), k0_pay2 (d2At m c t) (sameAt m c t) (k0_pay7 (F := F))) := by
  obtain ⟨n, hn⟩ := t
  cases n with
  | zero => rfl
  | succ n => exact (if_pos h).trans rfl

theorem scrAt_next (c : Dev nD) (t : Fin cfg0.N) (h : ¬ t.val % 8 = 0) :
    scrAt m c t.val t.isLt = (k0_pay1 (d2At m c t) (sameAt m c t) (diagAt t) (scrAt m c (t.val - 1) (Nat.lt_of_le_of_lt (Nat.sub_le _ _) t.isLt)).1,
      k0_pay2 (d2At m c t) (sameAt m c t) (scrAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The proof data -/

/-- The two buffers the kernel keeps between points. -/
abbrev scM0 : Memref sig .tc .vmem S1024x1 .f32 := Memref.whole cc0_scratch0
abbrev scM1 : Memref sig .tc .vmem S1024x1 .f32 := Memref.whole cc0_scratch1

/-- The invariant before position `n`: before the first point the two kept buffers hold anything; afterwards the
    running maximum and minimum the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scrAt m c n hn).1 ∗ owns (c : Thread nD τ) scM1 fullShare (scrAt m c n hn).2)

/-- The proof data on core `c`: the arrays as the region finds them; after the body each input's buffer at its block and
    the two outputs' at the hinge terms and the counts; the embeddings' array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => perAt m c t
    | ⟨7, _⟩ => cntAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

end Cert.Kernel.Hand

end
-- ==== Proof.KBCond.lean ====
import proofs.«155192_j82746839925071_2_alg».proof.Proof.KBState
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The point is the first of its row of the grid (the running buffers restart); the point is the last of its row (the
    rows' results are stored). -/
abbrev condFirst (i : grid0.Coords) : Prop := (Scalar.cmpi .ne (Scalar.extui (Scalar.cmpi .eq (BitVec.ofNat 32 (i 1).val) 0#32)) 0#32) = 1#1
abbrev condLast (i : grid0.Coords) : Prop := k0_cond2 i = 1#1

theorem hFirst : ∀ t : Fin cfg0.N, condFirst (grid0.coords t) ↔ t.val % 8 = 0 :=
  (by decide +kernel : ∀ t : Fin grid0.N, condFirst (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)

/-- The two outputs are idle, and not written back, at every point but the last of a row; live there. -/
theorem idle6 : ∀ t : Fin cfg0.N, ¬condLast (grid0.coords t) → cfg0.idle 6 (grid0.coords t) = true := by decide +kernel
theorem idle7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
theorem live6 : ∀ t : Fin cfg0.N, condLast (grid0.coords t) → cfg0.idle 6 (grid0.coords t) = false := by decide +kernel
theorem live7 : ∀ t : Fin cfg0.N, condLast (grid0.coords t) → cfg0.idle 7 (grid0.coords t) = false := by decide +kernel

/-! ## Whole-buffer loads and stores -/

theorem hz2 : (![0, 0] : Fin 2 → ℕ) = fun _ => 0 := by funext a; fin_cases a <;> rfl

/-- After a list of stores whose LAST one fills the whole buffer, the buffer reads that store's value. -/
theorem read_last_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

end Cert.Kernel.Hand

end
-- ==== Proof.KBRunFirst.lean ====
import proofs.«155192_j82746839925071_2_alg».proof.Proof.KBCond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first point of a row of the grid: the two kept buffers are filled, then updated with the tile's row maxima and minima; the outputs' buffers are not touched. -/
theorem run_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : condFirst i) (h2 : ¬condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare y8
            ∗ owns (c : Thread nD τ) arg9 fullShare y9
            ∗ owns (c : Thread nD τ) arg10 fullShare (k0_pay1 (k0_pay8 x2 x3 x4 x5) (k0_pay9 (F := F) x6 x7) (k0_pay10 i) (k0_pay6 (F := F)))
            ∗ owns (c : Thread nD τ) arg11 fullShare (k0_pay2 (k0_pay8 x2 x3 x4 x5) (k0_pay9 (F := F) x6 x7) (k0_pay7 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro; exact harg8.read_unread _
  isplitl [H9]
  · iexists _; isplitr; swap; (· iexact H9)
    ipureintro; exact harg9.read_unread _
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.Kernel.Hand

end
-- ==== Proof.KBRunMid.lean ====
import proofs.«155192_j82746839925071_2_alg».proof.Proof.KBCond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point that is neither first nor last of its row of the grid: the two kept buffers are updated with the tile's row maxima and minima; the outputs' buffers are not touched. -/
theorem run_mid (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : ¬condFirst i) (h2 : ¬condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare y8
            ∗ owns (c : Thread nD τ) arg9 fullShare y9
            ∗ owns (c : Thread nD τ) arg10 fullShare (k0_pay1 (k0_pay8 x2 x3 x4 x5) (k0_pay9 (F := F) x6 x7) (k0_pay10 i) s0)
            ∗ owns (c : Thread nD τ) arg11 fullShare (k0_pay2 (k0_pay8 x2 x3 x4 x5) (k0_pay9 (F := F) x6 x7) s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro; exact harg8.read_unread _
  isplitl [H9]
  · iexists _; isplitr; swap; (· iexact H9)
    ipureintro; exact harg9.read_unread _
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.Kernel.Hand

end
-- ==== Proof.KBRunLast.lean ====
import proofs.«155192_j82746839925071_2_alg».proof.Proof.KBCond
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point of a row of the grid: the two kept buffers are updated, and the rows' hinge terms and counts, computed from them, are stored into the two outputs' buffers. -/
theorem run_last (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (h1 : ¬condFirst i) (h2 : condLast i)
    (x2 x3 : Vec F S1024x128 .f32) (x4 : Vec F S1024x1 .f32) (x5 : Vec F S1x1024 .f32) (x6 : Vec F S1024x1 .i32) (x7 : Vec F S1x1024 .i32)
    (y8 y9 s0 s1 : Vec F S1024x1 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare y8
        ∗ owns (c : Thread nD τ) arg9 fullShare y9
        ∗ owns (c : Thread nD τ) arg10 fullShare s0
        ∗ owns (c : Thread nD τ) arg11 fullShare s1
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare (k0_pay4 (k0_pay1 (k0_pay8 x2 x3 x4 x5) (k0_pay9 (F := F) x6 x7) (k0_pay10 i) s0) (k0_pay2 (k0_pay8 x2 x3 x4 x5) (k0_pay9 (F := F) x6 x7) s1) (k0_pay1 (k0_pay8 x2 x3 x4 x5) (k0_pay9 (F := F) x6 x7) (k0_pay10 i) s0) (k0_pay2 (k0_pay8 x2 x3 x4 x5) (k0_pay9 (F := F) x6 x7) s1))
            ∗ owns (c : Thread nD τ) arg9 fullShare (k0_pay5 (k0_pay1 (k0_pay8 x2 x3 x4 x5) (k0_pay9 (F := F) x6 x7) (k0_pay10 i) s0) (k0_pay2 (k0_pay8 x2 x3 x4 x5) (k0_pay9 (F := F) x6 x7) s1))
            ∗ owns (c : Thread nD τ) arg10 fullShare (k0_pay1 (k0_pay8 x2 x3 x4 x5) (k0_pay9 (F := F) x6 x7) (k0_pay10 i) s0)
            ∗ owns (c : Thread nD τ) arg11 fullShare (k0_pay2 (k0_pay8 x2 x3 x4 x5) (k0_pay9 (F := F) x6 x7) s1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact h1 | exact h2)
  sl_step
  iapply Hk
  isplitl [H2]
  · iexists _; isplitr; swap; (· iexact H2)
    ipureintro; exact harg2.read_unread _
  isplitl [H3]
  · iexists _; isplitr; swap; (· iexact H3)
    ipureintro; exact harg3.read_unread _
  isplitl [H4]
  · iexists _; isplitr; swap; (· iexact H4)
    ipureintro; exact harg4.read_unread _
  isplitl [H5]
  · iexists _; isplitr; swap; (· iexact H5)
    ipureintro; exact harg5.read_unread _
  isplitl [H6]
  · iexists _; isplitr; swap; (· iexact H6)
    ipureintro; exact harg6.read_unread _
  isplitl [H7]
  · iexists _; isplitr; swap; (· iexact H7)
    ipureintro; exact harg7.read_unread _
  isplitl [H8]
  · iexists _; isplitr; swap; (· iexact H8)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  isplitl [H9]
  · iexists _; isplitr; swap; (· iexact H9)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  isplitl [H10]
  · iexists _; isplitr; swap; (· iexact H10)
    ipureintro
    sl_unfold_run_names
    rw [read_last_whole (S := S1024x1) _ _ hz2]
    (try dsimp only)
    sl_unfold_run_names
    simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]
  iexists _; isplitr; swap; (· iexact H11)
  ipureintro
  sl_unfold_run_names
  rw [read_last_whole (S := S1024x1) _ _ hz2]
  (try dsimp only)
  sl_unfold_run_names
  simp only [View.readCov_unit_zero (S := S1024x1) _ hz2, View.readAt_eq_ld, Memref.IsWhole.read_unread, View.ld_unit_zero (S := S1024x128) hz2, View.ld_unit_zero (S := S1024x1) hz2, View.ld_unit_zero (S := S1x1024) hz2]

end Cert.Kernel.Hand

end
-- ==== Proof.KBOblig.lean ====
import proofs.«155192_j82746839925071_2_alg».proof.Proof.KBRunFirst
import proofs.«155192_j82746839925071_2_alg».proof.Proof.KBRunMid
import proofs.«155192_j82746839925071_2_alg».proof.Proof.KBRunLast
import Idealize.ShloMosaic.Lib.Pipeline.FrameBody
import Idealize.ShloMosaic.Lib.Pipeline.Regions
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data, projected -/

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
/-- Input window 0's buffer holds its block at every point, fetched there or not (unfetched, the block index has not moved). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
/-- Input window 1's buffer holds its block at every point, fetched there or not (unfetched, the block index has not moved). -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
/-- Input window 2's buffer holds its block at every point, fetched there or not (unfetched, the block index has not moved). -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
/-- Input window 3's buffer holds its block at every point, fetched there or not (unfetched, the block index has not moved). -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
/-- Input window 4's buffer holds its block at every point, fetched there or not (unfetched, the block index has not moved). -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = iblk m c 5 t := by dsimp only [dats]
/-- Input window 5's buffer holds its block at every point, fetched there or not (unfetched, the block index has not moved). -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem after6 (c : Dev nD) (t : Fin cfg0.N) : (dats m 0 c).after 6 t = perAt m c t := by dsimp only [dats]
theorem after7 (c : Dev nD) (t : Fin cfg0.N) : (dats m 0 c).after 7 t = cntAt m c t := by dsimp only [dats]

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare (scrAt m c n hn).1 ∗ owns (c : Thread nD τ) scM1 fullShare (scrAt m c n hn).2) := rfl
theorem PhiS_pos (c : Dev nD) (n : ℕ) (h : n ≤ cfg0.N) (hz : n ≠ 0) :
    PhiS m c n h = iprop(owns (c : Thread nD τ) scM0 fullShare (scrAt m c (n - 1) (by omega)).1 ∗ owns (c : Thread nD τ) scM1 fullShare (scrAt m c (n - 1) (by omega)).2) := by
  cases n with
  | zero => exact absurd rfl hz
  | succ n => rfl
theorem Phi_castSucc (c : Dev nD) (t : Fin cfg0.N) : (dats m 0 c).Φ t.castSucc = PhiS m c t.val (Nat.le_of_lt t.isLt) := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' buffers hold their blocks; the point's position in its row of the grid says which
    of the three runs applies; the invariant hands the body the two kept buffers at what the point before left (at
    anything before the very first point) and takes them back at this point's contents; an output's buffer comes back
    untouched except at the last point of a row, where it holds the rows' results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (win0_0.stage (cfg0.slots t 0)) fullShare ((dats m 0 c).after 0 t) from rfl, after0]
  rw [show (dats m 0 c).leavesExact 1 t = owns (c : Thread nD τ) (win0_1.stage (cfg0.slots t 1)) fullShare ((dats m 0 c).after 1 t) from rfl, after1]
  rw [show (dats m 0 c).leavesExact 2 t = owns (c : Thread nD τ) (win0_2.stage (cfg0.slots t 2)) fullShare ((dats m 0 c).after 2 t) from rfl, after2]
  rw [show (dats m 0 c).leavesExact 3 t = owns (c : Thread nD τ) (win0_3.stage (cfg0.slots t 3)) fullShare ((dats m 0 c).after 3 t) from rfl, after3]
  rw [show (dats m 0 c).leavesExact 4 t = owns (c : Thread nD τ) (win0_4.stage (cfg0.slots t 4)) fullShare ((dats m 0 c).after 4 t) from rfl, after4]
  rw [show (dats m 0 c).leavesExact 5 t = owns (c : Thread nD τ) (win0_5.stage (cfg0.slots t 5)) fullShare ((dats m 0 c).after 5 t) from rfl, after5]
  by_cases h0 : t.val % 8 = 0
  · have hf : condFirst (grid0.coords t) := (hFirst t).mpr h0
    have hl : ¬condLast (grid0.coords t) := fun h => by have := (hLast t).mp h; omega
    rw [Dat.leavesExact_idle (dats m 0 c) 6 t (idle6 t hl) (noFlush6 t hl), Dat.leavesExact_idle (dats m 0 c) 7 t (idle7 t hl) (noFlush7 t hl)]
    rw [scrAt_first m c t h0]
    unfold d2At sameAt diagAt; dsimp only
    by_cases hz : t.val = 0
    · rw [Phi_castSucc m c t, PhiS_zero m c _ _ hz]
      iintro ⟨⟨⟨%e0, HS0⟩, ⟨%e1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hf : ¬condFirst (grid0.coords t) := fun h => h0 ((hFirst t).mp h)
    have hz : t.val ≠ 0 := fun h => h0 (by rw [h])
    rw [Phi_castSucc m c t, PhiS_pos m c _ _ hz]
    by_cases h7 : t.val % 8 = 7
    · have hl : condLast (grid0.coords t) := (hLast t).mpr h7
      rw [show (dats m 0 c).leavesExact 6 t = owns (c : Thread nD τ) (win0_6.stage (cfg0.slots t 6)) fullShare ((dats m 0 c).after 6 t) from by
        unfold Dat.leavesExact; rw [live6 t hl], after6]
      rw [show (dats m 0 c).leavesExact 7 t = owns (c : Thread nD τ) (win0_7.stage (cfg0.slots t 7)) fullShare ((dats m 0 c).after 7 t) from by
        unfold Dat.leavesExact; rw [live7 t hl], after7]
      unfold perAt cntAt
      rw [scrAt_next m c t h0]
      unfold d2At sameAt diagAt; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hl : ¬condLast (grid0.coords t) := fun h => h7 ((hLast t).mp h)
      rw [Dat.leavesExact_idle (dats m 0 c) 6 t (idle6 t hl) (noFlush6 t hl), Dat.leavesExact_idle (dats m 0 c) 7 t (idle7 t hl) (noFlush7 t hl)]
      rw [scrAt_next m c t h0]
      unfold d2At sameAt diagAt; dsimp only
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0 (Memref.isWhole_whole _) scM1 (Memref.isWhole_whole _) hf hl (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBEntry.lean ====
import proofs.«155192_j82746839925071_2_alg».proof.Proof.KBState
import Idealize.ShloMosaic.Lib.Pipeline.FrameBody
import Idealize.ShloMosaic.Lib.Pipeline.Regions
import Idealize.ShloMosaic.Lib.Tactic
import Idealize.ShloMosaic.Lib.Pipeline.Value
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The seven buffers behind the eight windows -/

/-- The distinct buffers behind the windows' arrays, one by one: the embeddings (read by two windows), the squared
    norms as a column and as a row, the labels as a column and as a row, and the two results. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) := by
  unfold Pipeline.arrBufs
  exact bigSep_eq_bigSepL_of_eq [main_arg0, main_v2, main_v3, main_v4, main_v5, main_v6_0, main_v6_1] (by decide) (by decide) _

/-- The proof data's arrays, window by window, each at its share: the embeddings' buffer by halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4) ∗ (((c : Thread nD τ).loc main_v5) ↦{fullShare} G 5)
          ∗ (((c : Thread nD τ).loc main_v6_0) ↦{fullShare} G 6) ∗ (((c : Thread nD τ).loc main_v6_1) ↦{fullShare} G 7)) := by
  have e : ∀ w : Fin cfg0.W, ((cfg0.win w).arr.view.loc (c : Thread nD τ) ↦[(cfg0.win w).arr.view.set]{(dats m 0 c).share w} G w : sProp 𝕄)
      = (((c : Thread nD τ).loc (Pipeline.arrRef spec0 w)) ↦{(dats m 0 c).share w} G w) := fun w => by rw [(arr_whole0 w).set_eq_univ]
  unfold Dat.arrays
  rw [bigSep_W0, e 0, e 1, e 2, e 3, e 4, e 5, e 6, e 7]
  rfl

/-! ## Entering and leaving the region -/

/-- ENTRY: a core's unscoped buffers at the region-entry contents are the proof data's arrays at entry — the embeddings'
    buffer split into its two halves, one per window reading it — and the buffers that bypass the region. -/
theorem entry_split (c : Dev nD) :
    (unscopedBufs (Ix := Unit) (Name := ℕ) (U := UR sig nD τ) (Lvl := ℕ) c (V m c) : sProp 𝕄)
      ⊢ iprop((dats m 0 c).arrays ((dats m 0 c).arrAt · 0) ∗ Pipeline.unscopedRest spec0 c (V m c)) := by
  rw [Pipeline.unscopedBufs_split₀ cfgs (0 : Fin 1) winFacts₀0.arr_unscoped c (V m c), arrBufs0_eq, arrays0_eq]
  iintro ⟨⟨H0, H2, H3, H4, H5, H6, H7⟩, Hr⟩
  ihave H0' := (pointsTo_share (PosShare.mem_left_op_right fullShare)).1 $$ H0
  icases H0' with ⟨H0l, H0r⟩
  isplitr [Hr]; swap; · iexact Hr
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

open Classical in
/-- The buffers' contents when the region is left: the two results at what the pipeline wrote back, every other buffer
    as the region found it. -/
def V1 (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

theorem V1_v6_0 (c : Dev nD) : V1 m c (Proc.devRef .tc main_v6_0) = (dats m 0 c).arrAt 6 cfg0.N := by
  unfold V1; rw [Function.update_of_ne (StableHlo.devRef_ne_of_ne (by decide)), Function.update_self]
theorem V1_v6_1 (c : Dev nD) : V1 m c (Proc.devRef .tc main_v6_1) = (dats m 0 c).arrAt 7 cfg0.N := by
  unfold V1; rw [Function.update_self]
theorem V1_other (c : Dev nD) (b : Ref sig .tc) (h0 : b ≠ main_v6_0) (h1 : b ≠ main_v6_1) :
    V1 m c (Proc.devRef .tc b) = V m c b := by
  unfold V1; rw [Function.update_of_ne (StableHlo.devRef_ne_of_ne h1), Function.update_of_ne (StableHlo.devRef_ne_of_ne h0)]

/-- An input's array ends as the region found it. -/
theorem fin0 (c : Dev nD) : (dats m 0 c).arrAt 0 cfg0.N = V m c main_arg0 := (dats m 0 c).arrAt_in 0 rfl _
theorem fin1 (c : Dev nD) : (dats m 0 c).arrAt 1 cfg0.N = V m c main_arg0 := (dats m 0 c).arrAt_in 1 rfl _
theorem fin2 (c : Dev nD) : (dats m 0 c).arrAt 2 cfg0.N = V m c main_v2 := (dats m 0 c).arrAt_in 2 rfl _
theorem fin3 (c : Dev nD) : (dats m 0 c).arrAt 3 cfg0.N = V m c main_v3 := (dats m 0 c).arrAt_in 3 rfl _
theorem fin4 (c : Dev nD) : (dats m 0 c).arrAt 4 cfg0.N = V m c main_v4 := (dats m 0 c).arrAt_in 4 rfl _
theorem fin5 (c : Dev nD) : (dats m 0 c).arrAt 5 cfg0.N = V m c main_v5 := (dats m 0 c).arrAt_in 5 rfl _

set_option maxHeartbeats 2000000 in
/-- EXIT: the arrays at their final contents — the inputs as they were, the embeddings' two halves joined again, the
    two results as written back — and the bypassing buffers are the core's unscoped buffers at the exit contents. -/
theorem exit_join (c : Dev nD) :
    iprop((dats m 0 c).arrays ((dats m 0 c).arrAt · cfg0.N) ∗ Pipeline.unscopedRest spec0 c (V m c))
      ⊢ (unscopedBufs (Ix := Unit) (Name := ℕ) (U := UR sig nD τ) (Lvl := ℕ) c (fun b => V1 m c (Proc.devRef .tc b)) : sProp 𝕄) := by
  rw [Pipeline.unscopedBufs_split₀ cfgs (0 : Fin 1) winFacts₀0.arr_unscoped c (fun b => V1 m c (Proc.devRef .tc b)), arrBufs0_eq, arrays0_eq,
    unscopedRest0_eq, unscopedRest0_eq]
  rw [V1_v6_0, V1_v6_1]
  rw [V1_other m c main_arg0 (by decide) (by decide), V1_other m c main_v2 (by decide) (by decide), V1_other m c main_v3 (by decide) (by decide),
    V1_other m c main_v4 (by decide) (by decide), V1_other m c main_v5 (by decide) (by decide),
    V1_other m c main_arg1 (by decide) (by decide), V1_other m c main_v0 (by decide) (by decide), V1_other m c main_cst (by decide) (by decide),
    V1_other m c main_v1 (by decide) (by decide), V1_other m c main_v7 (by decide) (by decide), V1_other m c main_v8 (by decide) (by decide),
    V1_other m c main_cst_0 (by decide) (by decide), V1_other m c main_v9 (by decide) (by decide), V1_other m c main_cst_1 (by decide) (by decide),
    V1_other m c main_v10 (by decide) (by decide), V1_other m c main_cst_2 (by decide) (by decide), V1_other m c main_v11 (by decide) (by decide),
    V1_other m c main_v12 (by decide) (by decide)]
  rw [fin0 m c, fin1 m c, fin2 m c, fin3 m c, fin4 m c, fin5 m c]
  iintro ⟨⟨H0l, H0r, H2, H3, H4, H5, H6, H7⟩, Hr⟩
  ihave H0 := (pointsTo_share (PosShare.mem_left_op_right fullShare)).2 $$ [H0l H0r]
  · isplitl [H0l]; · iexact H0l
    iexact H0r
  isplitr [Hr]; swap; · iexact Hr
  isplitl [H0]; · iexact H0
  isplitl [H2]; · iexact H2
  isplitl [H3]; · iexact H3
  isplitl [H4]; · iexact H4
  isplitl [H5]; · iexact H5
  isplitl [H6]; · iexact H6
  iexact H7

end Cert.Kernel.Hand

end
-- ==== Proof.KBLaunch.lean ====
import proofs.«155192_j82746839925071_2_alg».proof.Proof.KBOblig
import proofs.«155192_j82746839925071_2_alg».proof.Proof.KBEntry
import Idealize.ShloMosaic.Lib.Pipeline.FrameBody
import Idealize.ShloMosaic.Lib.Pipeline.Regions
import Idealize.ShloMosaic.Lib.Tactic
import Idealize.ShloMosaic.Lib.Pipeline.Value
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's fixed choices -/

/-- The pipeline library's algebra is the whole of the certificate's. -/
abbrev EP : Emb (UR sig nD τ) (MT nD τ sig Unit (Elt F) ℕ (UR sig nD τ) ℕ) := emb₁
/-- No core owes another anything: no level is assigned. -/
abbrev Lvs : GSem nD τ sig → Finset Unit := fun _ => ∅
abbrev lvs : GSem nD τ sig → Unit → ℕ := fun _ _ => 0
/-- No prefetched table. -/
abbrev adm : (p : Fin 1) → (pcfgs (F := F) p).Adm := fun p => (cfgs p).toPCfg_adm
abbrev 𝒱₀ : Variants := Variants.none
/-- What rides beside the buffers through every segment: the core owing nothing. -/
abbrev Rr (c : Dev nD) : sProp 𝕄 := iprop(∃ W, owes (c : Thread nD τ) (0 : CellTallies nD τ sig Unit) W)
/-- Core `c`'s buffers at launch, as the host operations' valuation. -/
abbrev L0 (c : Dev nD) : Valuation τ sig (Elt F) := fun b => m (c, b)
/-- The TensorCore's unscoped buffers: the set the host operations run within. -/
abbrev ucR : Finset (DevRef τ sig) := Pipeline.ucRefs τ sig

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- No host operation before the region writes a buffer other than its own result. -/
theorem notw0 (b : Ref sig .tc) (hb : b ≠ main_v0 ∧ b ≠ main_cst ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›
/-- Nor does one after it. -/
theorem notw1 (b : Ref sig .tc) (hb : b ≠ main_v7 ∧ b ≠ main_v8 ∧ b ≠ main_cst_0 ∧ b ≠ main_v9 ∧ b ≠ main_cst_1 ∧ b ≠ main_v10 ∧ b ≠ main_cst_2 ∧ b ≠ main_v11 ∧ b ≠ main_v12) :
    ∀ op ∈ (hostOps1 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The two arguments reach the end as launched. -/
theorem end_arg0 (c : Dev nD) : StableHlo.after hostOps1 (V1 m c) (Proc.devRef .tc main_arg0) = m ((c : Thread nD τ).loc main_arg0) :=
  (StableHlo.after_of_forall_not_mem (b := Proc.devRef .tc main_arg0) hostOps1 (V1 m c) (notw1 main_arg0 (by decide))).trans
    ((V1_other m c main_arg0 (by decide) (by decide)).trans
      (StableHlo.after_of_forall_not_mem (b := Proc.devRef .tc main_arg0) hostOps0 (L0 m c) (notw0 main_arg0 (by decide))))
theorem end_arg1 (c : Dev nD) : StableHlo.after hostOps1 (V1 m c) (Proc.devRef .tc main_arg1) = m ((c : Thread nD τ).loc main_arg1) :=
  (StableHlo.after_of_forall_not_mem (b := Proc.devRef .tc main_arg1) hostOps1 (V1 m c) (notw1 main_arg1 (by decide))).trans
    ((V1_other m c main_arg1 (by decide) (by decide)).trans
      (StableHlo.after_of_forall_not_mem (b := Proc.devRef .tc main_arg1) hostOps0 (L0 m c) (notw0 main_arg1 (by decide))))

/-! ## @main as three segments -/

/-- The seven host operations before the region, over the unscoped buffers. -/
def seg0 : Pipeline.HostSeg (Name := ℕ) (U := UR sig nD τ) (pcfgs (F := F)) defs₀ 𝒱₀ Lvs lvs :=
  Pipeline.HostSeg.ofOps _ _ _ _ _ ucR hostOps0 (fun op h => Pipeline.sub_ucRefs op ((List.forall_iff_forall_mem.mp hostOps0_sub) op h))
    fresh0 (L0 m) Rr

/-- The nine host operations after it, from the buffers as the region leaves them. -/
def seg1 : Pipeline.HostSeg (Name := ℕ) (U := UR sig nD τ) (pcfgs (F := F)) defs₀ 𝒱₀ Lvs lvs :=
  Pipeline.HostSeg.ofOps _ _ _ _ _ ucR hostOps1 (fun op h => Pipeline.sub_ucRefs op ((List.forall_iff_forall_mem.mp hostOps1_sub) op h))
    fresh1 (V1 m) Rr

set_option backward.isDefEq.respectTransparency.types false in
/-- The region: the decided layout (two windows on one array), no semaphore of the kernel's own, the body obligation;
    entered from what the first segment left — the arrays into the pipeline, the embeddings' buffer by halves, every
    other unscoped buffer bypassing —, left with the two results written back and the halves joined. -/
def reg0 : Pipeline.RegionSeg (pcfgs (F := F)) adm (dats m) () defs₀ 𝒱₀ Lvs lvs 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lvs lvs 0 fun _ _ => rfl
  pre c := iprop(StableHlo.held (c : Thread nD τ) ucR (StableHlo.after hostOps0 (L0 m c)) ∗ Rr c)
  post c := iprop(StableHlo.held (c : Thread nD τ) ucR (V1 m c) ∗ Rr c)
  X _ := iprop(emp)
  Y _ := iprop(emp)
  Z c := Pipeline.unscopedRest spec0 c (V m c)
  hentry c := by
    rw [show StableHlo.held (c : Thread nD τ) ucR (StableHlo.after hostOps0 (L0 m c)) = unscopedBufs c (V m c) from (Pipeline.unscopedBufs_held c _).symm]
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [scM0, scM1, owns_whole]
    iintro ⟨-, -, H⟩
    iexact H
  hout c := by
    rw [Pipeline.ownSems0_none, show (dats m 0 c).Φ (Fin.last cfg0.N) = PhiS m c cfg0.N (le_refl _) from rfl,
      PhiS_pos m c _ _ (by rw [show cfg0.N = 64 from N_0]; decide), scopedRest0_eq]
    simp only [scM0, scM1, owns_whole]
    iintro ⟨H0, H1⟩
    isplitr; · iempintro
    isplitr; · iempintro
    isplitl [H0]; · iexists _; iexact H0
    iexists _; iexact H1
  hexit c := by
    rw [show StableHlo.held (c : Thread nD τ) ucR (V1 m c) = unscopedBufs c (fun b => V1 m c (Proc.devRef .tc b)) from (Pipeline.unscopedBufs_held c _).symm]
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lvs lvs) := [.host (seg0 m), .region (reg0 m), .host (seg1 m)]

/-- The launch element: the pipeline library's at the staging cells. -/
def u₀ : UR sig nD τ := initOf (Pipeline.cells cfgs cellOf_inj) (Pipeline.launchToks cfgs cellOf_inj)

/-- What every final state holds: the result at the host tail's value of the buffers the region left, the two
    arguments as launched. -/
def QC : PUnit × MemSt nD τ sig (Elt F) → Prop := fun r =>
  ∀ c : Dev nD, r.2.mem ((c : Thread nD τ).loc main_v12) = StableHlo.after hostOps1 (V1 m c) (Proc.devRef .tc main_v12)
    ∧ r.2.mem ((c : Thread nD τ).loc main_arg0) = m ((c : Thread nD τ).loc main_arg0)
    ∧ r.2.mem ((c : Thread nD τ).loc main_arg1) = m ((c : Thread nD τ).loc main_arg1)

theorem mem_ucR (b : Ref sig .tc) (h : (Proc.devRef .tc b : DevRef τ sig).isScoped = false) :
    (Proc.devRef .tc b : DevRef τ sig) ∈ (ucR : Finset (DevRef τ sig)) := by
  unfold ucR Pipeline.ucRefs StableHlo.tcRefs
  exact Finset.mem_filter.mpr ⟨Finset.mem_map.mpr ⟨b, Finset.mem_univ _, rfl⟩, by rw [h]; exact Bool.false_ne_true⟩

set_option backward.isDefEq.respectTransparency.types false in
/-- At the compiled mesh, from any memory with zero counters: every weakly fair execution of @main on the TensorCores
    terminates, nothing faulting, and every final state has the result at the host tail's value of what the region
    left and both arguments as launched. -/
theorem run_main : θ_run defs (onTc (τ := τ) (main (F := F))) (s₀ m ρ) (QC m) :=
  Pipeline.θ_run_regions_kit (pcfgs (F := F)) adm (dats m) () cellOf_inj EP defs₀ 𝒱₀ Lvs lvs m ρ main (segs m)
    (fun c Q => by rw [main_segs adm (dats m) () 𝒱₀ Lvs lvs (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (L0 m c) ∗ Rr c))
    (Tₙ := fun c => StableHlo.held (c : Thread nD τ) ucR (StableHlo.after hostOps1 (V1 m c)))
    (hch := ⟨fun _ => .rfl, fun _ => .rfl, fun _ => .rfl, fun _ => .rfl⟩)
    (hinit := by
      refine Pipeline.initEach Lvs lvs fun c => ?_
      rw [show unscopedBufs c (fun b => m ((c : Thread nD τ).loc b)) = StableHlo.held (c : Thread nD τ) ucR (L0 m c) from Pipeline.unscopedBufs_held c (L0 m c)]
      iintro ⟨⟨Hh, -, HO, -, -, -⟩, -⟩
      imodintro
      isplitl [Hh]; · iexact Hh
      iexists ∅; iexact HO)
    (QY := fun c s => s.mem ((c : Thread nD τ).loc main_v12) = StableHlo.after hostOps1 (V1 m c) (Proc.devRef .tc main_v12)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all ucR (fun b => ((c : Thread nD τ).1, b)) (StableHlo.after hostOps1 (V1 m c)) s') $$ [Hh HSI]
      · isplitl [Hh] <;> iassumption
      icases Hr with ⟨%ha, HSI⟩
      imodintro
      isplitr
      · ipureintro
        exact ⟨ha _ (mem_ucR main_v12 rfl), (ha _ (mem_ucR main_arg0 rfl)).trans (end_arg0 m c), (ha _ (mem_ucR main_arg1 rfl)).trans (end_arg1 m c)⟩
      iexact HSI)
    (hQ := fun _ h => h)

end Cert.Kernel.Hand

end
-- ==== Proof.KIArrays.lean ====
/-
  From blocks to the array, for the two arrays the region writes: the rows' hinge terms and the rows' counts, each of
  8192 rows and one column, written back in blocks of 1024 rows. The grid has eight rows of eight points; a block is
  written back at the last point of its grid row and at no other point, so after the run array row `R` holds row
  `R % 1024` of what the last point of grid row `R / 1024` stored.
-/
import proofs.«155192_j82746839925071_2_alg».proof.Proof.KIState
import Idealize.ShloMosaic.Lib.Pipeline.Value
import Idealize.ShloMosaic.Lib.ValueIdx

noncomputable section

namespace Cert.KernelIdeal.HandArrays

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (m : (ℓ : Loc nD τ sig) → Buf (Elt F) ℓ)

/-! ## Points and rows -/

/-- The last point of array row `y`'s grid row is a point of the grid. -/
theorem pt_lt (y : S8192x1.Idx) : (y 0).val / 1024 * 8 + 7 < cfg0.N := by
  have hy : (y 0).val < 8192 := (y 0).isLt
  show _ < grid0.N
  rw [N_0]; omega

/-- The last point of grid row `i` is a point of the grid. -/
theorem row_pt_lt (i : Fin 8) : i.val * 8 + 7 < cfg0.N := by
  have hi : i.val < 8 := i.isLt
  show _ < grid0.N
  rw [N_0]; omega

/-- Row `r` of block `i` is a row of the array. -/
theorem row_lt (i : Fin 8) (r : Fin 1024) : i.val * 1024 + r.val < 8192 := by
  have hi : i.val < 8 := i.isLt
  have hr : r.val < 1024 := r.isLt
  omega

/-! ## The rows' hinge terms: output window 6 -/

/-- The printed index map, decided over the grid: at point `t` the block is number `t / 8` along the rows and the only
    one along the single column. -/
theorem idx_facts6 : ∀ t : Fin cfg0.N, win0_6.index t (0 : Fin 2) = t.val / 8 ∧ win0_6.index t (1 : Fin 2) = 0 :=
  (by decide +kernel : ∀ t : Fin grid0.N, _)

/-- What the array ends holding: row `R` reads the block stored at the last point of grid row `R / 1024`, at the
    block's row `R % 1024`. -/
def G6 (c : Dev nD) : S8192x1.Idx → Elt F .f32 := fun y =>
  perAt m c ⟨(y 0).val / 1024 * 8 + 7, pt_lt y⟩ (ix2 ⟨(y 0).val % 1024, Nat.mod_lt _ (by decide)⟩ 0)

/-- Equal points and equal block indices read equal entries. -/
theorem perAt_congr (c : Dev nD) {t t' : Fin cfg0.N} (h : t.val = t'.val) {j j' : S1024x1.Idx}
    (hj : ∀ a, (j a).val = (j' a).val) : perAt m c t j = perAt m c t' j' := by
  have e1 : t = t' := Fin.ext h
  have e2 : j = j' := funext fun a => Fin.ext (hj a)
  rw [e1, e2]

/-- What a writing point writes back is its block of `G6`: the block's row `r` sits at array row
    `(t / 8) * 1024 + r`, whose grid row is `t / 8` and whose last point is `t` itself. -/
theorem flushed6_eq (c : Dev nD) (t : Fin cfg0.N) (ht : t.val % 8 = 7) :
    (dats m 0 c).flushed 6 t = ((cfg0.win 6).blk t).view.read (Elt F) (G6 m c) := by
  show (cfg0.win 6).cut (grid0.coords t) ((dats m 0 c).after 6 t) = _
  funext j
  show (dats m 0 c).after 6 t ((cfg0.win 6).xinj (grid0.coords t) j) = G6 m c (((cfg0.win 6).blk t).view.emb j)
  dsimp only [dats]
  unfold G6
  obtain ⟨e0, e1⟩ := idx_facts6 t
  have hj0 : (j 0).val < 1024 := (j 0).isLt
  have hj1 : (j 1).val < 1 := (j 1).isLt
  have ht64 : t.val < 64 := by have h : t.val < grid0.N := t.isLt; have hN := N_0; omega
  have hemb : ((((cfg0.win 6).blk t).view.emb j) 0).val = win0_6.index t (0 : Fin 2) * 1024 + 1 * (j 0).val := rfl
  refine perAt_congr m c ?_ ?_
  · show t.val = (((cfg0.win 6).blk t).view.emb j 0).val / 1024 * 8 + 7
    rw [hemb, e0]; omega
  · intro a
    match a with
    | ⟨0, _⟩ => show (j 0).val = (((cfg0.win 6).blk t).view.emb j 0).val % 1024; rw [hemb, e0]; omega
    | ⟨1, _⟩ => show (j 1).val = 0; omega

/-- An index of the array is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v6_0).slice (win0_6.rect t)).set ↔ _
  rw [View.set_slice_whole, Rect.mem_set_unit]
  exact Iff.rfl

/-- Every row of the array is in the block some writing point writes back: the last point of its grid row. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  refine ⟨⟨(i 0).val / 1024 * 8 + 7, pt_lt i⟩, (flush0_6 _).mpr (by show ((i 0).val / 1024 * 8 + 7) % 8 = 7; omega), ?_⟩
  rw [mem_blk6]
  obtain ⟨e0, e1⟩ := idx_facts6 ⟨(i 0).val / 1024 * 8 + 7, pt_lt i⟩
  have e0' : win0_6.index ⟨(i 0).val / 1024 * 8 + 7, pt_lt i⟩ (0 : Fin 2) = ((i 0).val / 1024 * 8 + 7) / 8 := e0
  intro a
  match a with
  | ⟨0, _⟩ =>
    show win0_6.index ⟨(i 0).val / 1024 * 8 + 7, pt_lt i⟩ (0 : Fin 2) * 1024 ≤ (i 0).val
      ∧ (i 0).val < win0_6.index ⟨(i 0).val / 1024 * 8 + 7, pt_lt i⟩ (0 : Fin 2) * 1024 + 1024
    rw [e0']; omega
  | ⟨1, _⟩ =>
    show win0_6.index ⟨(i 0).val / 1024 * 8 + 7, pt_lt i⟩ (1 : Fin 2) * 1 ≤ (i 1).val
      ∧ (i 1).val < win0_6.index ⟨(i 0).val / 1024 * 8 + 7, pt_lt i⟩ (1 : Fin 2) * 1 + 1
    rw [e1]; omega

/-- The array after the run. -/
theorem final6 (c : Dev nD) : (dats m 0 c).arrAt 6 cfg0.N = G6 m c :=
  (dats m 0 c).arrAt_eq_of_cover 6 (G6 m c) (fun t hf => flushed6_eq m c t ((flush0_6 t).mp hf)) cover6

/-- Row `i * 1024 + r` of the array after the run is row `r` of what the last point of grid row `i` stored. -/
theorem arr6_at (c : Dev nD) (i : Fin 8) (r : Fin 1024) :
    ((dats m 0 c).arrAt 6 cfg0.N : S8192x1.Idx → Elt F .f32) (ix2 ⟨i.val * 1024 + r.val, row_lt i r⟩ 0)
      = perAt m c ⟨i.val * 8 + 7, row_pt_lt i⟩ (ix2 r 0) := by
  rw [final6]
  unfold G6
  have hi : i.val < 8 := i.isLt
  have hr : r.val < 1024 := r.isLt
  refine perAt_congr m c ?_ ?_
  · show (i.val * 1024 + r.val) / 1024 * 8 + 7 = i.val * 8 + 7
    omega
  · intro a
    match a with
    | ⟨0, _⟩ => show (i.val * 1024 + r.val) % 1024 = r.val; omega
    | ⟨1, _⟩ => rfl

/-! ## The rows' counts: output window 7 -/

/-- The printed index map, decided over the grid: at point `t` the block is number `t / 8` along the rows and the only
    one along the single column. -/
theorem idx_facts7 : ∀ t : Fin cfg0.N, win0_7.index t (0 : Fin 2) = t.val / 8 ∧ win0_7.index t (1 : Fin 2) = 0 :=
  (by decide +kernel : ∀ t : Fin grid0.N, _)

/-- What the array ends holding: row `R` reads the block stored at the last point of grid row `R / 1024`, at the
    block's row `R % 1024`. -/
def G7 (c : Dev nD) : S8192x1.Idx → Elt F .f32 := fun y =>
  cntAt m c ⟨(y 0).val / 1024 * 8 + 7, pt_lt y⟩ (ix2 ⟨(y 0).val % 1024, Nat.mod_lt _ (by decide)⟩ 0)

/-- Equal points and equal block indices read equal entries. -/
theorem cntAt_congr (c : Dev nD) {t t' : Fin cfg0.N} (h : t.val = t'.val) {j j' : S1024x1.Idx}
    (hj : ∀ a, (j a).val = (j' a).val) : cntAt m c t j = cntAt m c t' j' := by
  have e1 : t = t' := Fin.ext h
  have e2 : j = j' := funext fun a => Fin.ext (hj a)
  rw [e1, e2]

/-- What a writing point writes back is its block of `G7`: the block's row `r` sits at array row
    `(t / 8) * 1024 + r`, whose grid row is `t / 8` and whose last point is `t` itself. -/
theorem flushed7_eq (c : Dev nD) (t : Fin cfg0.N) (ht : t.val % 8 = 7) :
    (dats m 0 c).flushed 7 t = ((cfg0.win 7).blk t).view.read (Elt F) (G7 m c) := by
  show (cfg0.win 7).cut (grid0.coords t) ((dats m 0 c).after 7 t) = _
  funext j
  show (dats m 0 c).after 7 t ((cfg0.win 7).xinj (grid0.coords t) j) = G7 m c (((cfg0.win 7).blk t).view.emb j)
  dsimp only [dats]
  unfold G7
  obtain ⟨e0, e1⟩ := idx_facts7 t
  have hj0 : (j 0).val < 1024 := (j 0).isLt
  have hj1 : (j 1).val < 1 := (j 1).isLt
  have ht64 : t.val < 64 := by have h : t.val < grid0.N := t.isLt; have hN := N_0; omega
  have hemb : ((((cfg0.win 7).blk t).view.emb j) 0).val = win0_7.index t (0 : Fin 2) * 1024 + 1 * (j 0).val := rfl
  refine cntAt_congr m c ?_ ?_
  · show t.val = (((cfg0.win 7).blk t).view.emb j 0).val / 1024 * 8 + 7
    rw [hemb, e0]; omega
  · intro a
    match a with
    | ⟨0, _⟩ => show (j 0).val = (((cfg0.win 7).blk t).view.emb j 0).val % 1024; rw [hemb, e0]; omega
    | ⟨1, _⟩ => show (j 1).val = 0; omega

/-- An index of the array is in point `t`'s block iff each coordinate is in the block's range on its axis. -/
theorem mem_blk7 (t : Fin cfg0.N) (i : S8192x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v6_1).slice (win0_7.rect t)).set ↔ _
  rw [View.set_slice_whole, Rect.mem_set_unit]
  exact Iff.rfl

/-- Every row of the array is in the block some writing point writes back: the last point of its grid row. -/
theorem cover7 (i : S8192x1.Idx) :
    ∃ t : Fin cfg0.N, (cfg0.win 7).flush t = true ∧ i ∈ ((cfg0.win 7).blk t).view.set := by
  have hi0 : (i 0).val < 8192 := (i 0).isLt
  have hi1 : (i 1).val < 1 := (i 1).isLt
  refine ⟨⟨(i 0).val / 1024 * 8 + 7, pt_lt i⟩, (flush0_7 _).mpr (by show ((i 0).val / 1024 * 8 + 7) % 8 = 7; omega), ?_⟩
  rw [mem_blk7]
  obtain ⟨e0, e1⟩ := idx_facts7 ⟨(i 0).val / 1024 * 8 + 7, pt_lt i⟩
  have e0' : win0_7.index ⟨(i 0).val / 1024 * 8 + 7, pt_lt i⟩ (0 : Fin 2) = ((i 0).val / 1024 * 8 + 7) / 8 := e0
  intro a
  match a with
  | ⟨0, _⟩ =>
    show win0_7.index ⟨(i 0).val / 1024 * 8 + 7, pt_lt i⟩ (0 : Fin 2) * 1024 ≤ (i 0).val
      ∧ (i 0).val < win0_7.index ⟨(i 0).val / 1024 * 8 + 7, pt_lt i⟩ (0 : Fin 2) * 1024 + 1024
    rw [e0']; omega
  | ⟨1, _⟩ =>
    show win0_7.index ⟨(i 0).val / 1024 * 8 + 7, pt_lt i⟩ (1 : Fin 2) * 1 ≤ (i 1).val
      ∧ (i 1).val < win0_7.index ⟨(i 0).val / 1024 * 8 + 7, pt_lt i⟩ (1 : Fin 2) * 1 + 1
    rw [e1]; omega

/-- The array after the run. -/
theorem final7 (c : Dev nD) : (dats m 0 c).arrAt 7 cfg0.N = G7 m c :=
  (dats m 0 c).arrAt_eq_of_cover 7 (G7 m c) (fun t hf => flushed7_eq m c t ((flush0_7 t).mp hf)) cover7

/-- Row `i * 1024 + r` of the array after the run is row `r` of what the last point of grid row `i` stored. -/
theorem arr7_at (c : Dev nD) (i : Fin 8) (r : Fin 1024) :
    ((dats m 0 c).arrAt 7 cfg0.N : S8192x1.Idx → Elt F .f32) (ix2 ⟨i.val * 1024 + r.val, row_lt i r⟩ 0)
      = cntAt m c ⟨i.val * 8 + 7, row_pt_lt i⟩ (ix2 r 0) := by
  rw [final7]
  unfold G7
  have hi : i.val < 8 := i.isLt
  have hr : r.val < 1024 := r.isLt
  refine cntAt_congr m c ?_ ?_
  · show (i.val * 1024 + r.val) / 1024 * 8 + 7 = i.val * 8 + 7
    omega
  · intro a
    match a with
    | ⟨0, _⟩ => show (i.val * 1024 + r.val) % 1024 = r.val; omega
    | ⟨1, _⟩ => rfl

end Cert.KernelIdeal.HandArrays

end
-- ==== Proof.Spec.lean ====
/-
  The triplet loss with hardest-positive / hardest-negative mining over 8192 embeddings of width 128, as plain
  functions of the two argument arrays, on the extended reals. Two arrangements of one quantity:

  * mined on SQUARED distances, the square root taken once per row afterwards (`hpSq`, `hnSq`, `lossSq`): the running
    maximum over a row's positives and minimum over its negatives start at `⊥` and `⊤`, a row counts when the maximum
    has left `⊥` and the minimum has left `⊤`, and a pair of one row with itself is never a positive;
  * mined on distances (`hpD`, `hnD`, `lossD`): the square root of every clamped squared distance first, a positive is a
    same-label pair at positive distance, a row counts when it has a positive and a negative.

  Both divide the sum of the rows' hinge terms by the number of counted rows, at least one. No program is imported.
-/
import Idealize.ShloMosaic.PureOps.Ideal
import Idealize.ShloMosaic.Lib.ValueIdx

noncomputable section

namespace Cert.Spec

open Idealize.ShloMosaic Idealize.ShloMosaic.ValueIdx
open Classical

/-- The embeddings' shape and the labels' shape. -/
abbrev SX : Shape := ⟨2, ![8192, 128]⟩
abbrev SL : Shape := ⟨1, ![8192]⟩

/-- Every embedding entry is a real number. -/
def Finite (x : SX.Idx → EReal) : Prop := ∀ i, ∃ a : ℝ, x i = (a : EReal)

/-- The factor `2` of the cross term and the hinge's margin, as the words the programs carry. -/
def two : EReal := Ideal.ofBits .f32 0x40000000#32
def margin : EReal := Ideal.ofBits .f32 0x3DCCCCCD#32

section

variable (x : SX.Idx → EReal) (lab : SL.Idx → BitVec 32)

/-- Row `r`'s squared norm, and the inner product of rows `r` and `c`. -/
def sq (r : Fin 8192) : EReal := ∑ k : Fin 128, x (ix2 r k) * x (ix2 r k)
def dot (r c : Fin 8192) : EReal := ∑ k : Fin 128, x (ix2 r k) * x (ix2 c k)

/-- The squared distance of rows `r` and `c` by the polarization identity, clamped at zero. -/
def d2 (r c : Fin 8192) : EReal := max (sq x r + sq x c - two * dot x r c) 0

/-- Rows `r` and `c` carry one label. -/
def same (r c : Fin 8192) : Prop := lab (ix1 r) = lab (ix1 c)

/-! ### Mined on squared distances -/

/-- `c` is a positive of `r`: same label, another row, at positive squared distance. -/
def posSq (r c : Fin 8192) : Prop := same lab r c ∧ r ≠ c ∧ 0 < d2 x r c

/-- The largest squared distance to a positive (`⊥` if there is none), the smallest to a negative (`⊤` if none). -/
def hpSq (r : Fin 8192) : EReal := Finset.univ.sup fun c : Fin 8192 => if posSq x lab r c then d2 x r c else ⊥
def hnSq (r : Fin 8192) : EReal := Finset.univ.inf fun c : Fin 8192 => if same lab r c then ⊤ else d2 x r c

/-- Row `r` counts: the maximum has left `⊥` and the minimum has left `⊤`. -/
def validSq (r : Fin 8192) : Prop := ⊥ < hpSq x lab r ∧ hnSq x lab r < ⊤

/-- Row `r`'s hinge term and its count. -/
def perSq (r : Fin 8192) : EReal :=
  if validSq x lab r then max (Ideal.sqrt (max (hpSq x lab r) 0) - Ideal.sqrt (max (hnSq x lab r) 0) + margin) 0 else 0
def cntSq (r : Fin 8192) : EReal := if validSq x lab r then 1 else 0

/-- The loss: the hinge terms' sum over the number of counted rows, at least one. -/
def lossSq : EReal := Ideal.div (∑ r : Fin 8192, perSq x lab r) (max (∑ r : Fin 8192, cntSq x lab r) 1)

/-! ### Mined on distances -/

/-- The distance of rows `r` and `c`: the root of the clamped squared distance where that is positive (the root taken of
    `1` elsewhere and discarded), else `0`. -/
def dist (r c : Fin 8192) : EReal := if 0 < d2 x r c then Ideal.sqrt (if 0 < d2 x r c then d2 x r c else 1) else 0

/-- `c` is a positive of `r`: same label, at positive distance. -/
def posD (r c : Fin 8192) : Prop := same lab r c ∧ 0 < dist x r c

def hpD (r : Fin 8192) : EReal := Finset.univ.sup fun c : Fin 8192 => if posD x lab r c then dist x r c else ⊥
def hnD (r : Fin 8192) : EReal := Finset.univ.inf fun c : Fin 8192 => if same lab r c then ⊤ else dist x r c

/-- Row `r` counts: it has a positive and a negative. -/
def validD (r : Fin 8192) : Prop := (∃ c, posD x lab r c) ∧ (∃ c, ¬ same lab r c)

def perD (r : Fin 8192) : EReal := if validD x lab r then max (hpD x lab r - hnD x lab r + margin) 0 else 0
def cntD (r : Fin 8192) : EReal := if validD x lab r then 1 else 0

def lossD : EReal := Ideal.div (∑ r : Fin 8192, perD x lab r) (max (∑ r : Fin 8192, cntD x lab r) 1)

end

end Cert.Spec

end
-- ==== Proof.KITail.lean ====
/-
  The kernel program's host operations after the region, read at the extended reals: the two [8192, 1] result
  columns are flattened to length 8192, each is summed from zero, the count's sum is clamped below by one, and the
  hinge terms' sum is divided by it. If the columns hold the rows' hinge terms and counts, the result is the loss.
-/
import proofs.«155192_j82746839925071_2_alg».proof.Proof.Gen.KernelIdeal.Launch
import proofs.«155192_j82746839925071_2_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.HandTail

open Cert.KernelIdeal Cert.KernelIdeal.Gen Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The [8192, 1] column flattened to length 8192, read at `R`, is the column's entry in row `R`. -/
theorem squeeze_apply (p : S8192x1.Idx → EReal) (h : S8192x1.ShapeCasts S8192) (R : Fin 8192) :
    shapeCast S8192 p h (ix1 R) = p (ix2 R 0) := by
  refine shapeCast_apply p h (ix1 R) (ix2 R 0) ?_
  rw [Shape.rowMajor_val_two, Shape.rowMajor_val_one]
  simp

/-- The host's sum from zero of the flattened column is the sum of the column's entries over the rows. -/
theorem hostSum_squeeze {axes : List (Fin S8192.rank)} (p : S8192x1.Idx → EReal) (h : S8192x1.ShapeCasts S8192)
    (h' : S8192.ReducesTo axes S_) (hu : 0 < S_.numel) (j : S_.Idx) :
    (Host.reduceAdd (F := Ideal) (φ := .f32) (fun i => shapeCast S8192 p h i) (constant S_ .f32 0x00000000#32) h' hu) j
      = ∑ R : Fin 8192, p (ix2 R 0) := by
  show Ideal.hostReduceAdd h' _ (Ideal.ofBits .f32 0x00000000#32) j = _
  rw [Ideal.hostReduceAdd_total h' (fun b => b.elim0), Ideal.ofBits_zero_f32, zero_add, sum_idx1]
  exact Finset.sum_congr rfl fun R _ => squeeze_apply p h R

/-- The nine operations' composed term over two columns holding the hinge terms and the counts is the loss. -/
theorem tail_term {axes : List (Fin S8192.rank)} (p c : S8192x1.Idx → EReal) (h : S8192x1.ShapeCasts S8192)
    (h' : S8192.ReducesTo axes S_) (hu : 0 < S_.numel)
    (x : Cert.Spec.SX.Idx → EReal) (lab : Cert.Spec.SL.Idx → BitVec 32)
    (hP : ∀ R : Fin 8192, p (ix2 R 0) = Cert.Spec.perSq x lab R)
    (hC : ∀ R : Fin 8192, c (ix2 R 0) = Cert.Spec.cntSq x lab R) :
    (Host.divf (F := Ideal) (φ := .f32)
        (Host.reduceAdd (fun i => shapeCast S8192 p h i) (constant S_ .f32 0x00000000#32) h' hu)
        (maximumf (Host.reduceAdd (fun i => shapeCast S8192 c h i) (constant S_ .f32 0x00000000#32) h' hu)
          (constant S_ .f32 0x3F800000#32)) : S_.Idx → EReal)
      = fun _ => Cert.Spec.lossSq x lab := by
  funext j
  show Ideal.div
      ((Host.reduceAdd (F := Ideal) (φ := .f32) (fun i => shapeCast S8192 p h i) (constant S_ .f32 0x00000000#32) h' hu) j)
      (max ((Host.reduceAdd (F := Ideal) (φ := .f32) (fun i => shapeCast S8192 c h i) (constant S_ .f32 0x00000000#32) h' hu) j)
        (Ideal.ofBits .f32 0x3F800000#32)) = _
  rw [hostSum_squeeze p h h' hu j, hostSum_squeeze c h h' hu j, Ideal.ofBits_one_f32]
  unfold Cert.Spec.lossSq
  rw [Finset.sum_congr rfl fun R _ => hP R, Finset.sum_congr rfl fun R _ => hC R]

/-- After the nine host operations, from any contents whose two result columns hold the rows' hinge terms and counts,
    the program's result holds the loss. -/
theorem tail_value (W : Valuation τ sig (Elt Ideal)) (x : Cert.Spec.SX.Idx → EReal) (lab : Cert.Spec.SL.Idx → BitVec 32)
    (hP : ∀ R : Fin 8192, (W (Proc.devRef .tc main_v6_0) : S8192x1.Idx → EReal) (ix2 R 0) = Cert.Spec.perSq x lab R)
    (hC : ∀ R : Fin 8192, (W (Proc.devRef .tc main_v6_1) : S8192x1.Idx → EReal) (ix2 R 0) = Cert.Spec.cntSq x lab R) :
    (StableHlo.after (hostOps1 (F := Ideal)) W (Proc.devRef .tc main_v12) : S_.Idx → EReal)
      = fun _ => Cert.Spec.lossSq x lab := by
  dsimp only [hostOps1]
  open Idealize.ShloMosaic.StableHlo in after_results
  exact tail_term (W (Proc.devRef .tc main_v6_0)) (W (Proc.devRef .tc main_v6_1)) _ _ _ x lab hP hC

end Cert.KernelIdeal.HandTail

end
-- ==== Proof.KIResult.lean ====
/-
  The kernel side's result at the ideal instance: when the region is left the two arrays it wrote hold, row by row, what
  the last point of each grid row stored; if those are the specification's hinge terms and counts mined on squared
  distances, the operations after the region turn them into the specification's loss mined on squared distances.
-/
import proofs.«155192_j82746839925071_2_alg».proof.Proof.KIEntry
import proofs.«155192_j82746839925071_2_alg».proof.Proof.KIArrays
import proofs.«155192_j82746839925071_2_alg».proof.Proof.KITail

noncomputable section

namespace Cert.KernelIdeal.HandResult

open Cert.KernelIdeal Cert.KernelIdeal.Gen Cert.KernelIdeal.Hand Cert.KernelIdeal.HandArrays
open Idealize.ShloMosaic Idealize.ShloMosaic.TcCoe Idealize.ShloMosaic.ValueIdx
open Idealize.SL Idealize.SL.Sem

/-- Every row of the array is a row of one of the eight blocks: `R = (R / 1024) * 1024 + R % 1024`. -/
theorem row_of (R : Fin 8192) : ∃ (i : Fin 8) (r : Fin 1024), R = ⟨i.val * 1024 + r.val, row_lt i r⟩ :=
  ⟨⟨R.val / 1024, by have hR : R.val < 8192 := R.isLt; omega⟩, ⟨R.val % 1024, Nat.mod_lt _ (by decide)⟩,
    Fin.ext (by show R.val = R.val / 1024 * 1024 + R.val % 1024; omega)⟩

variable (m : (ℓ : Loc nD τ sig) → Buf (Elt Ideal) ℓ) (c : Dev nD)

/-- The result, for any two arrays `x`, `lab` of which the stored blocks are the hinge terms and the counts. -/
theorem kernel_result_of (x : Cert.Spec.SX.Idx → EReal) (lab : Cert.Spec.SL.Idx → BitVec 32)
    (hper : ∀ (i : Fin 8) (r : Fin 1024), perAt (F := Ideal) m c ⟨i.val * 8 + 7, row_pt_lt i⟩ (ix2 r 0)
      = Cert.Spec.perSq x lab ⟨i.val * 1024 + r.val, row_lt i r⟩)
    (hcnt : ∀ (i : Fin 8) (r : Fin 1024), cntAt (F := Ideal) m c ⟨i.val * 8 + 7, row_pt_lt i⟩ (ix2 r 0)
      = Cert.Spec.cntSq x lab ⟨i.val * 1024 + r.val, row_lt i r⟩) :
    (StableHlo.after (hostOps1 (F := Ideal)) (V1 m c) (Proc.devRef .tc main_v12) : S_.Idx → EReal)
      = fun _ => Cert.Spec.lossSq x lab := by
  refine Cert.KernelIdeal.HandTail.tail_value (V1 m c) x lab ?_ ?_
  · intro R
    obtain ⟨i, r, rfl⟩ := row_of R
    rw [V1_v6_0]
    exact (arr6_at m c i r).trans (hper i r)
  · intro R
    obtain ⟨i, r, rfl⟩ := row_of R
    rw [V1_v6_1]
    exact (arr7_at m c i r).trans (hcnt i r)

/-- The result at the program's two argument arrays. -/
theorem kernel_result
    (hper : ∀ (i : Fin 8) (r : Fin 1024), perAt (F := Ideal) m c ⟨i.val * 8 + 7, row_pt_lt i⟩ (ix2 r 0)
      = Cert.Spec.perSq (m ((c : Thread nD τ).loc main_arg0)) (m ((c : Thread nD τ).loc main_arg1))
          ⟨i.val * 1024 + r.val, row_lt i r⟩)
    (hcnt : ∀ (i : Fin 8) (r : Fin 1024), cntAt (F := Ideal) m c ⟨i.val * 8 + 7, row_pt_lt i⟩ (ix2 r 0)
      = Cert.Spec.cntSq (m ((c : Thread nD τ).loc main_arg0)) (m ((c : Thread nD τ).loc main_arg1))
          ⟨i.val * 1024 + r.val, row_lt i r⟩) :
    (StableHlo.after (hostOps1 (F := Ideal)) (V1 m c) (Proc.devRef .tc main_v12) : S_.Idx → EReal)
      = fun _ => Cert.Spec.lossSq (m ((c : Thread nD τ).loc main_arg0)) (m ((c : Thread nD τ).loc main_arg1)) :=
  kernel_result_of m c _ _ hper hcnt

end Cert.KernelIdeal.HandResult

end
-- ==== Proof.KILemmas.lean ====
/-
  Layout operations and lane reductions read at an index, and the lattice facts the row recursion needs:
  a column cast [a] → [a,1], a column broadcast [a,1] → [a,b], the row maximum / minimum of a [1024,1024]
  tile as a supremum / infimum over the columns, and a supremum (infimum) over 8192 columns cut at a block
  of 1024.
-/
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Idealize.ShloMosaic Idealize.ShloMosaic.ValueIdx

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Lanes

/-- The fold of `max` from `⊥` is the supremum. -/
theorem fold_max_bot {ι : Type} (s : Finset ι) (f : ι → EReal) : s.fold max ⊥ f = s.sup f := by
  apply le_antisymm
  · exact (Finset.fold_max_le _).2 ⟨bot_le, fun x hx => Finset.le_sup hx⟩
  · exact Finset.sup_le fun x hx => (Finset.le_fold_max _).2 (Or.inr ⟨x, hx, le_rfl⟩)

/-- The fold of `min` from `⊤` is the infimum. -/
theorem fold_min_top {ι : Type} (s : Finset ι) (f : ι → EReal) : s.fold min ⊤ f = s.inf f := by
  apply le_antisymm
  · exact Finset.le_inf fun x hx => (Finset.fold_min_le _).2 (Or.inr ⟨x, hx, le_rfl⟩)
  · exact (Finset.le_fold_min _).2 ⟨le_top, fun x hx => Finset.inf_le hx⟩

abbrev T : Shape := ⟨2, ![1024, 1024]⟩
abbrev T1 : Shape := ⟨1, ![1024]⟩

theorem lift_row (h : T.Reduces [1] T1) (p : Fin 1024) (q : Fin 1024) : h.lift (ix1 p) q = ix2 p q := by
  funext a
  match a with
  | ⟨0, _⟩ => exact Fin.ext rfl
  | ⟨1, _⟩ => exact Fin.ext rfl

/-- The row maximum of a tile from an accumulator that denotes `⊥`: the supremum over the row's columns. -/
theorem rowMax_apply (src : FVec Ideal T .f32) (acc : BitVec 32) (h : T.Reduces [1] T1) (hφ : FKind.Formats .f32)
    (hacc : acc = FKind.maximumf.neutral .f32 hφ) (hbot : Ideal.ofBits .f32 acc = ⊥) (p : Fin 1024) :
    multiReduction .maximumf [1] T1 src acc h hφ hacc (ix1 p) = Finset.univ.sup fun q : Fin 1024 => src (ix2 p q) := by
  refine (Ideal.multiReduction_maximumf_single src acc h hφ hacc (ix1 p)).trans ?_
  have hb : FloatOps.ofBits (F := Ideal) .f32 acc = ⊥ := hbot
  rw [hb]
  exact (fold_max_bot _ _).trans (Finset.sup_congr rfl fun q _ => congrArg src (lift_row h p q))

/-- The row minimum of a tile from an accumulator that denotes `⊤`: the infimum over the row's columns. -/
theorem rowMin_apply (src : FVec Ideal T .f32) (acc : BitVec 32) (h : T.Reduces [1] T1) (hφ : FKind.Formats .f32)
    (hacc : acc = FKind.minimumf.neutral .f32 hφ) (htop : Ideal.ofBits .f32 acc = ⊤) (p : Fin 1024) :
    multiReduction .minimumf [1] T1 src acc h hφ hacc (ix1 p) = Finset.univ.inf fun q : Fin 1024 => src (ix2 p q) := by
  have e : multiReduction .minimumf [1] T1 src acc h hφ hacc (ix1 p)
      = (Finset.univ : Finset (Fin (T.size 1))).fold min (FloatOps.ofBits (F := Ideal) .f32 acc) (src ∘ h.lift (ix1 p)) := by
    rw [multiReduction_minimumf_eq_fold]
    exact h.fold_filter_drop_single _ _ src (ix1 p)
  have hb : FloatOps.ofBits (F := Ideal) .f32 acc = ⊤ := htop
  rw [e, hb]
  exact (fold_min_top _ _).trans (Finset.inf_congr rfl fun q _ => congrArg src (lift_row h p q))

theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]

end Lanes

section Blocks

/-- A supremum over the columns below `a + 1024` is the one over the columns below `a` joined with the block's. -/
theorem sup_cut (f : Fin 8192 → EReal) (a : ℕ) (ha : a + 1024 ≤ 8192) :
    (Finset.univ.sup fun c : Fin 8192 => if c.val < a + 1024 then f c else ⊥)
      = max (Finset.univ.sup fun c : Fin 8192 => if c.val < a then f c else ⊥)
          (Finset.univ.sup fun q : Fin 1024 => f ⟨a + q.val, by have := q.isLt; omega⟩) := by
  apply le_antisymm
  · refine Finset.sup_le fun c _ => ?_
    by_cases h1 : c.val < a
    · refine le_trans ?_ (le_max_left _ _)
      refine le_trans ?_ (Finset.le_sup (f := fun c : Fin 8192 => if c.val < a then f c else ⊥) (Finset.mem_univ c))
      simp only [h1, if_true]
      split <;> simp
    · by_cases h2 : c.val < a + 1024
      · refine le_trans ?_ (le_max_right _ _)
        rw [if_pos h2]
        have hq : c.val - a < 1024 := by omega
        refine le_trans (le_of_eq ?_) (Finset.le_sup (f := fun q : Fin 1024 => f ⟨a + q.val, by have := q.isLt; omega⟩) (Finset.mem_univ ⟨c.val - a, hq⟩))
        exact congrArg f (Fin.ext (by show c.val = a + (c.val - a); omega))
      · rw [if_neg h2]; exact bot_le
  · refine max_le (Finset.sup_le fun c _ => ?_) (Finset.sup_le fun q _ => ?_)
    · by_cases h1 : c.val < a
      · rw [if_pos h1]
        refine le_trans (le_of_eq ?_) (Finset.le_sup (f := fun c : Fin 8192 => if c.val < a + 1024 then f c else ⊥) (Finset.mem_univ c))
        rw [if_pos (by omega)]
      · rw [if_neg h1]; exact bot_le
    · have hq := q.isLt
      refine le_trans (le_of_eq ?_) (Finset.le_sup (f := fun c : Fin 8192 => if c.val < a + 1024 then f c else ⊥) (Finset.mem_univ ⟨a + q.val, by omega⟩))
      rw [if_pos (by show a + q.val < a + 1024; omega)]

/-- The same for an infimum. -/
theorem inf_cut (f : Fin 8192 → EReal) (a : ℕ) (ha : a + 1024 ≤ 8192) :
    (Finset.univ.inf fun c : Fin 8192 => if c.val < a + 1024 then f c else ⊤)
      = min (Finset.univ.inf fun c : Fin 8192 => if c.val < a then f c else ⊤)
          (Finset.univ.inf fun q : Fin 1024 => f ⟨a + q.val, by have := q.isLt; omega⟩) := by
  apply le_antisymm
  · refine le_min (Finset.le_inf fun c _ => ?_) (Finset.le_inf fun q _ => ?_)
    · by_cases h1 : c.val < a
      · rw [if_pos h1]
        refine le_trans (Finset.inf_le (f := fun c : Fin 8192 => if c.val < a + 1024 then f c else ⊤) (Finset.mem_univ c)) (le_of_eq ?_)
        rw [if_pos (by omega)]
      · rw [if_neg h1]; exact le_top
    · have hq := q.isLt
      refine le_trans (Finset.inf_le (f := fun c : Fin 8192 => if c.val < a + 1024 then f c else ⊤) (Finset.mem_univ ⟨a + q.val, by omega⟩)) (le_of_eq ?_)
      rw [if_pos (by show a + q.val < a + 1024; omega)]
  · refine Finset.le_inf fun c _ => ?_
    by_cases h1 : c.val < a
    · refine le_trans (min_le_left _ _) ?_
      refine le_trans (Finset.inf_le (f := fun c : Fin 8192 => if c.val < a then f c else ⊤) (Finset.mem_univ c)) ?_
      simp only [h1, if_true]
      split <;> simp
    · by_cases h2 : c.val < a + 1024
      · refine le_trans (min_le_right _ _) ?_
        rw [if_pos h2]
        have hq : c.val - a < 1024 := by omega
        refine le_trans (Finset.inf_le (f := fun q : Fin 1024 => f ⟨a + q.val, by have := q.isLt; omega⟩) (Finset.mem_univ ⟨c.val - a, hq⟩)) (le_of_eq ?_)
        exact congrArg f (Fin.ext (by show a + (c.val - a) = c.val; omega))
      · rw [if_neg h2]; exact le_top

theorem sup_none (f : Fin 8192 → EReal) : (Finset.univ.sup fun c : Fin 8192 => if c.val < 0 then f c else ⊥) = ⊥ := by
  refine le_antisymm (Finset.sup_le fun c _ => ?_) bot_le
  rw [if_neg (Nat.not_lt_zero _)]
theorem inf_none (f : Fin 8192 → EReal) : (Finset.univ.inf fun c : Fin 8192 => if c.val < 0 then f c else ⊤) = ⊤ := by
  refine le_antisymm le_top (Finset.le_inf fun c _ => ?_)
  rw [if_neg (Nat.not_lt_zero _)]
theorem sup_all (f : Fin 8192 → EReal) : (Finset.univ.sup fun c : Fin 8192 => if c.val < 8192 then f c else ⊥) = Finset.univ.sup f :=
  Finset.sup_congr rfl fun c _ => if_pos c.isLt
theorem inf_all (f : Fin 8192 → EReal) : (Finset.univ.inf fun c : Fin 8192 => if c.val < 8192 then f c else ⊤) = Finset.univ.inf f :=
  Finset.inf_congr rfl fun c _ => if_pos c.isLt

end Blocks

end Cert.KernelIdeal.HandValue

end
-- ==== Proof.KIBlocks.lean ====
import proofs.«155192_j82746839925071_2_alg».proof.Proof.KIState
import proofs.«155192_j82746839925071_2_alg».proof.Proof.Spec
import proofs.«155192_j82746839925071_2_alg».proof.Proof.KILemmas
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable (m : (ℓ : Loc nD τ sig) → Buf (Elt Ideal) ℓ)

/-- The embeddings and the labels as launched on core `c`. -/
abbrev Xof (c : Dev nD) : Cert.Spec.SX.Idx → EReal := m ((c : Thread nD τ).loc main_arg0)
abbrev Lof (c : Dev nD) : Cert.Spec.SL.Idx → BitVec 32 := m ((c : Thread nD τ).loc main_arg1)

theorem not_written (b : Ref sig .tc) (hb : b ≠ main_v0 ∧ b ≠ main_cst ∧ b ≠ main_v1 ∧ b ≠ main_v2 ∧ b ≠ main_v3 ∧ b ≠ main_v4 ∧ b ≠ main_v5) :
    ∀ op ∈ (hostOps0 (F := Ideal)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c : Thread nD τ).loc main_arg0) :=
  StableHlo.after_of_forall_not_mem (b := Proc.devRef .tc main_arg0) hostOps0 (fun b => m (c, b)) (not_written main_arg0 (by decide))

/-- The rows' squared norms as the host operations compute them from the embeddings. -/
def sqHost (x : S8192x128.Idx → EReal) : S8192.Idx → EReal :=
  Host.reduceAdd (F := Ideal) (mulf (F := Ideal) (φ := .f32) x x) (constant (F := Ideal) S_ .f32 0x00000000#32) reducesTo_S8192x128_S8192_d1 h_S_

theorem V_v2 (c : Dev nD) : (V m c main_v2 : S8192x1.Idx → EReal) = shapeCast S8192x1 (sqHost (m ((c : Thread nD τ).loc main_arg0))) shapeCasts_S8192_S8192x1 := by
  show StableHlo.after hostOps0 (fun b => m (c, b)) (Proc.devRef .tc main_v2) = _
  after_results
  rfl

theorem V_v3 (c : Dev nD) : (V m c main_v3 : S1x8192.Idx → EReal) = shapeCast S1x8192 (sqHost (m ((c : Thread nD τ).loc main_arg0))) shapeCasts_S8192_S1x8192 := by
  show StableHlo.after hostOps0 (fun b => m (c, b)) (Proc.devRef .tc main_v3) = _
  after_results
  rfl

theorem V_v4 (c : Dev nD) : (V m c main_v4 : S8192x1.Idx → BitVec 32) = shapeCast S8192x1 (m ((c : Thread nD τ).loc main_arg1) : S8192.Idx → BitVec 32) shapeCasts_S8192_S8192x1 := by
  show StableHlo.after hostOps0 (fun b => m (c, b)) (Proc.devRef .tc main_v4) = _
  after_results
  rfl

theorem V_v5 (c : Dev nD) : (V m c main_v5 : S1x8192.Idx → BitVec 32) = shapeCast S1x8192 (m ((c : Thread nD τ).loc main_arg1) : S8192.Idx → BitVec 32) shapeCasts_S8192_S1x8192 := by
  show StableHlo.after hostOps0 (fun b => m (c, b)) (Proc.devRef .tc main_v5) = _
  after_results
  rfl

/-- A row's squared norm as the host operations compute it. -/
theorem sqHost_apply (x : S8192x128.Idx → EReal) (R : Fin 8192) : sqHost x (ix1 R) = Cert.Spec.sq x R := by
  unfold sqHost
  generalize hy : mulf (F := Ideal) (φ := .f32) x x = y0
  simp only [Host.reduceAdd, Ideal.hostReduceAdd_def]
  rw [Ideal.hostReduceAdd_single reducesTo_S8192x128_S8192_d1 (by decide)]
  unfold Cert.Spec.sq
  refine (congrArg (· + _) (show constant (F := Ideal) S_ .f32 0x00000000#32 (Shape.Idx.first h_S_) = 0 from Ideal.ofBits_zero_f32)).trans ?_
  rw [zero_add]
  refine Finset.sum_congr rfl fun k _ => ?_
  subst hy
  exact congrArg (fun i => x i * x i) (funext fun a => Fin.ext (by match a with | ⟨0, _⟩ => rfl | ⟨1, _⟩ => rfl))

/-- The four laid-out arrays at an index. -/
theorem V_v2_apply (c : Dev nD) (R : Fin 8192) (u : Fin 1) :
    (V m c main_v2 : S8192x1.Idx → EReal) (ix2 R u) = Cert.Spec.sq (Xof m c) R := by
  rw [V_v2, shapeCast_a_a1_apply, sqHost_apply]
theorem V_v3_apply (c : Dev nD) (u : Fin 1) (C : Fin 8192) :
    (V m c main_v3 : S1x8192.Idx → EReal) (ix2 u C) = Cert.Spec.sq (Xof m c) C := by
  rw [V_v3, shapeCast_a_1a_apply, sqHost_apply]
theorem V_v4_apply (c : Dev nD) (R : Fin 8192) (u : Fin 1) :
    (V m c main_v4 : S8192x1.Idx → BitVec 32) (ix2 R u) = Lof m c (ix1 R) := by
  rw [V_v4, shapeCast_a_a1_apply]
theorem V_v5_apply (c : Dev nD) (u : Fin 1) (C : Fin 8192) :
    (V m c main_v5 : S1x8192.Idx → BitVec 32) (ix2 u C) = Lof m c (ix1 C) := by
  rw [V_v5, shapeCast_a_1a_apply]

/-! ## The windows' blocks at a grid point -/

/-- The printed index maps over the grid: the row windows follow the point's row, the column windows its column. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8)
    ∧ (win0_4.index t (0 : Fin 2) = t.val / 8 ∧ win0_4.index t (1 : Fin 2) = 0)
    ∧ (win0_5.index t (0 : Fin 2) = 0 ∧ win0_5.index t (1 : Fin 2) = t.val % 8) :=
  (by decide +kernel : ∀ t : Fin grid0.N, _)

/-- The anchor rows' embeddings at a point: rows of the point's row block. -/
theorem iblk0_apply (c : Dev nD) (t : Fin cfg0.N) (p : Fin 1024) (k : Fin 128) (R : Fin 8192) (hR : R.val = t.val / 8 * 1024 + p.val) :
    (iblk m c 0 t : Vec Ideal S1024x128 .f32) (ix2 p k) = Xof m c (ix2 R k) := by
  have hi := (idx_facts t).1
  unfold iblk
  rw [View.read_apply]
  show V m c main_arg0 _ = m ((c : Thread nD τ).loc main_arg0) _
  refine (congrFun (V_arg0 m c) _).trans ?_
  refine congrArg (m ((c : Thread nD τ).loc main_arg0)) (funext fun a => Fin.ext ?_)
  match a with
  | ⟨0, _⟩ => show win0_0.index t 0 * 1024 + 1 * p.val = R.val; rw [hi.1, hR]; omega
  | ⟨1, _⟩ => show win0_0.index t 1 * 128 + 1 * k.val = k.val; rw [hi.2]; omega

/-- The key rows' embeddings at a point: rows of the point's column block. -/
theorem iblk1_apply (c : Dev nD) (t : Fin cfg0.N) (q : Fin 1024) (k : Fin 128) (C : Fin 8192) (hC : C.val = t.val % 8 * 1024 + q.val) :
    (iblk m c 1 t : Vec Ideal S1024x128 .f32) (ix2 q k) = Xof m c (ix2 C k) := by
  have hi := (idx_facts t).2.1
  unfold iblk
  rw [View.read_apply]
  show V m c main_arg0 _ = m ((c : Thread nD τ).loc main_arg0) _
  refine (congrFun (V_arg0 m c) _).trans ?_
  refine congrArg (m ((c : Thread nD τ).loc main_arg0)) (funext fun a => Fin.ext ?_)
  match a with
  | ⟨0, _⟩ => show win0_1.index t 0 * 1024 + 1 * q.val = C.val; rw [hi.1, hC]; omega
  | ⟨1, _⟩ => show win0_1.index t 1 * 128 + 1 * k.val = k.val; rw [hi.2]; omega

/-- The anchor rows' squared norms. -/
theorem iblk2_apply (c : Dev nD) (t : Fin cfg0.N) (p : Fin 1024) (u : Fin 1) (R : Fin 8192) (hR : R.val = t.val / 8 * 1024 + p.val) :
    (iblk m c 2 t : Vec Ideal S1024x1 .f32) (ix2 p u) = Cert.Spec.sq (Xof m c) R := by
  have hi := (idx_facts t).2.2.1
  unfold iblk
  rw [View.read_apply]
  show (V m c main_v2 : S8192x1.Idx → EReal) _ = _
  refine Eq.trans (congrArg (V m c main_v2 : S8192x1.Idx → EReal) (funext fun a => Fin.ext ?_)) (V_v2_apply m c R u)
  match a with
  | ⟨0, _⟩ => show win0_2.index t 0 * 1024 + 1 * p.val = R.val; rw [hi.1, hR]; omega
  | ⟨1, _⟩ => show win0_2.index t 1 * 1 + 1 * u.val = u.val; rw [hi.2]; omega

/-- The key rows' squared norms. -/
theorem iblk3_apply (c : Dev nD) (t : Fin cfg0.N) (u : Fin 1) (q : Fin 1024) (C : Fin 8192) (hC : C.val = t.val % 8 * 1024 + q.val) :
    (iblk m c 3 t : Vec Ideal S1x1024 .f32) (ix2 u q) = Cert.Spec.sq (Xof m c) C := by
  have hi := (idx_facts t).2.2.2.1
  unfold iblk
  rw [View.read_apply]
  show (V m c main_v3 : S1x8192.Idx → EReal) _ = _
  refine Eq.trans (congrArg (V m c main_v3 : S1x8192.Idx → EReal) (funext fun a => Fin.ext ?_)) (V_v3_apply m c u C)
  match a with
  | ⟨0, _⟩ => show win0_3.index t 0 * 1 + 1 * u.val = u.val; rw [hi.1]; omega
  | ⟨1, _⟩ => show win0_3.index t 1 * 1024 + 1 * q.val = C.val; rw [hi.2, hC]; omega

/-- The anchor rows' labels. -/
theorem iblk4_apply (c : Dev nD) (t : Fin cfg0.N) (p : Fin 1024) (u : Fin 1) (R : Fin 8192) (hR : R.val = t.val / 8 * 1024 + p.val) :
    (iblk m c 4 t : Vec Ideal S1024x1 .i32) (ix2 p u) = Lof m c (ix1 R) := by
  have hi := (idx_facts t).2.2.2.2.1
  unfold iblk
  rw [View.read_apply]
  show (V m c main_v4 : S8192x1.Idx → BitVec 32) _ = _
  refine Eq.trans (congrArg (V m c main_v4 : S8192x1.Idx → BitVec 32) (funext fun a => Fin.ext ?_)) (V_v4_apply m c R u)
  match a with
  | ⟨0, _⟩ => show win0_4.index t 0 * 1024 + 1 * p.val = R.val; rw [hi.1, hR]; omega
  | ⟨1, _⟩ => show win0_4.index t 1 * 1 + 1 * u.val = u.val; rw [hi.2]; omega

/-- The key rows' labels. -/
theorem iblk5_apply (c : Dev nD) (t : Fin cfg0.N) (u : Fin 1) (q : Fin 1024) (C : Fin 8192) (hC : C.val = t.val % 8 * 1024 + q.val) :
    (iblk m c 5 t : Vec Ideal S1x1024 .i32) (ix2 u q) = Lof m c (ix1 C) := by
  have hi := (idx_facts t).2.2.2.2.2
  unfold iblk
  rw [View.read_apply]
  show (V m c main_v5 : S1x8192.Idx → BitVec 32) _ = _
  refine Eq.trans (congrArg (V m c main_v5 : S1x8192.Idx → BitVec 32) (funext fun a => Fin.ext ?_)) (V_v5_apply m c u C)
  match a with
  | ⟨0, _⟩ => show win0_5.index t 0 * 1 + 1 * u.val = u.val; rw [hi.1]; omega
  | ⟨1, _⟩ => show win0_5.index t 1 * 1024 + 1 * q.val = C.val; rw [hi.2, hC]; omega

end Cert.KernelIdeal.HandValue

end
-- ==== Proof.KITile.lean ====
/-
  The kernel body's pure payloads read at an index, at the ideal instance: the tile of clamped squared distances, of
  label agreements and of the global diagonal; one step of the running maximum over positives and minimum over
  negatives; and the row's hinge term and count from the two running values.
-/
import proofs.«155192_j82746839925071_2_alg».proof.Proof.Gen.KernelIdeal.Skeleton
import proofs.«155192_j82746839925071_2_alg».proof.Proof.Spec
import proofs.«155192_j82746839925071_2_alg».proof.Proof.KILemmas
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout
import Idealize.ShloMosaic.Lib.IdealHost
import Idealize.ShloMosaic.Lib.Affine

set_option maxRecDepth 16384

noncomputable section

namespace Cert.KernelIdeal.HandValue

open Cert.KernelIdeal Cert.KernelIdeal.Gen
open Idealize.ShloMosaic Idealize.ShloMosaic.ValueIdx
open Classical

/-! ### One-bit words -/

theorem ofBool_decide_eq_one (p : Prop) [Decidable p] : BitVec.ofBool (decide p) = 1#1 ↔ p := by
  by_cases h : p <;> simp [h]
theorem cmp_ogt_eq_one (a b : EReal) : Ideal.cmp .ogt a b = 1#1 ↔ b < a := by
  unfold Ideal.cmp; exact ofBool_decide_eq_one _
theorem cmp_olt_eq_one (a b : EReal) : Ideal.cmp .olt a b = 1#1 ↔ a < b := by
  unfold Ideal.cmp; exact ofBool_decide_eq_one _
theorem select_of_iff {α : Type} (b : BitVec 1) (p : Prop) [Decidable p] (hb : b = 1#1 ↔ p) (u v : α) :
    Scalar.select b u v = if p then u else v := by
  unfold Scalar.select
  by_cases h : p
  · rw [if_pos h]; exact if_pos (hb.mpr h)
  · rw [if_neg h]; exact if_neg (fun e => h (hb.mp e))
theorem andi_eq_one (a b : BitVec 1) : IntOp.andi a b = 1#1 ↔ a = 1#1 ∧ b = 1#1 := by
  revert a b; decide
theorem xori_one_eq_one (a : BitVec 1) : IntOp.xori a 1#1 = 1#1 ↔ ¬ a = 1#1 := by
  revert a; decide

/-! ### The tile of clamped squared distances -/

theorem lhsT_0 (j : S1024x1024.Idx) (k : dot_S1024x128_S1024x128_S1024x1024_1_1_0_0_n_n.contr.Idx) :
    (dot_S1024x128_S1024x128_S1024x1024_1_1_0_0_n_n.lhsIdx j k 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhsT_1 (j : S1024x1024.Idx) (k : dot_S1024x128_S1024x128_S1024x1024_1_1_0_0_n_n.contr.Idx) :
    (dot_S1024x128_S1024x128_S1024x1024_1_1_0_0_n_n.lhsIdx j k 1).val = (k ⟨0, by decide⟩).val :=
  dot_S1024x128_S1024x128_S1024x1024_1_1_0_0_n_n.lhsIdx_val_of_single rfl j k
theorem rhsT_0 (j : S1024x1024.Idx) (k : dot_S1024x128_S1024x128_S1024x1024_1_1_0_0_n_n.contr.Idx) :
    (dot_S1024x128_S1024x128_S1024x1024_1_1_0_0_n_n.rhsIdx j k 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhsT_1 (j : S1024x1024.Idx) (k : dot_S1024x128_S1024x128_S1024x1024_1_1_0_0_n_n.contr.Idx) :
    (dot_S1024x128_S1024x128_S1024x1024_1_1_0_0_n_n.rhsIdx j k 1).val = (k ⟨0, by decide⟩).val :=
  dot_S1024x128_S1024x128_S1024x1024_1_1_0_0_n_n.rhsIdx_val_of_single rfl j k

/-- The inner products of the anchor rows with the key rows. -/
theorem dotTile_apply (v3 v5 : FVec Ideal S1024x128 .f32) (p q : Fin 1024) :
    matmul dot_S1024x128_S1024x128_S1024x1024_1_1_0_0_n_n none (truncf .bf16 v3 bitsLt_bf16_f32) (truncf .bf16 v5 bitsLt_bf16_f32)
        (constant (F := Ideal) S1024x1024 .f32 0x00000000#32) (ix2 p q)
      = ∑ k : Fin 128, v3 (ix2 p k) * v5 (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k :=
    funext fun a => Fin.ext (by
      match a with
      | ⟨0, _⟩ => exact lhsT_0 _ _
      | ⟨1, _⟩ => exact (lhsT_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k :=
    funext fun a => Fin.ext (by
      match a with
      | ⟨0, _⟩ => exact rhsT_0 _ _
      | ⟨1, _⟩ => exact (rhsT_1 _ _).trans hk)
  rw [el, er]
  rfl

/-- The tile of clamped squared distances at `(p, q)`: the polarization identity on what the four blocks hold. -/
theorem pay8_apply (v3 v5 : FVec Ideal S1024x128 .f32) (v8 : FVec Ideal S1024x1 .f32) (v10 : FVec Ideal S1x1024 .f32) (p q : Fin 1024) :
    k0_pay8 (F := Ideal) v3 v5 v8 v10 (ix2 p q)
      = max (v8 (ix2 p (0 : Fin 1)) + v10 (ix2 (0 : Fin 1) q) - Cert.Spec.two * ∑ k : Fin 128, v3 (ix2 p k) * v5 (ix2 q k)) 0 := by
  unfold k0_pay8
  rw [maximumf_apply, subf_apply, addf_apply, mulf_apply, broadcast_apply, broadcast_apply, dotTile_apply,
    broadcastTo_a1_ab_apply, broadcastTo_1b_ab_apply, shapeCast_self, shapeCast_self]
  show max (_ - Ideal.ofBits .f32 0x40000000#32 * _) (Ideal.ofBits .f32 0x00000000#32) = _
  rw [Ideal.ofBits_zero_f32]
  rfl

/-! ### The tiles of label agreement and of the global diagonal -/

/-- Two rows' labels agree. -/
theorem pay9_apply (v20 : IVec S1024x1 32) (v22 : IVec S1x1024 32) (p q : Fin 1024) :
    k0_pay9 (F := Ideal) v20 v22 (ix2 p q) = 1#1 ↔ v20 (ix2 p (0 : Fin 1)) = v22 (ix2 (0 : Fin 1) q) := by
  unfold k0_pay9
  show IntOp.cmpi .eq (broadcastTo S1024x1024 (shapeCast S1024x1 v20 shapeCasts_S1024x1_S1024x1) broadcasts_S1024x1_S1024x1024 (ix2 p q))
      (broadcastTo S1024x1024 (shapeCast S1x1024 v22 shapeCasts_S1x1024_S1x1024) broadcasts_S1x1024_S1024x1024 (ix2 p q)) = 1#1 ↔ _
  rw [broadcastTo_a1_ab_apply, broadcastTo_1b_ab_apply, shapeCast_self, shapeCast_self]
  exact IntOp.cmpi_eq

/-- A block offset plus a coordinate inside the block, as a word, is that natural number. -/
theorem word_toNat (a p : ℕ) (ha : a < 8) (hp : p < 1024) :
    (IntOp.addi (Scalar.muli (BitVec.ofNat 32 a) 1024#32) (BitVec.ofNat 32 p)).toNat = a * 1024 + p := by
  simp only [IntOp.addi, Scalar.muli, IntOp.muli, BitVec.toNat_add, BitVec.toNat_mul, BitVec.toNat_ofNat, BitVec.toNat_ofNat, Nat.reducePow, Nat.reduceMod]
  omega

theorem word_eq_iff (a b p q : ℕ) (ha : a < 8) (hb : b < 8) (hp : p < 1024) (hq : q < 1024) :
    IntOp.addi (Scalar.muli (BitVec.ofNat 32 a) 1024#32) (BitVec.ofNat 32 p)
        = IntOp.addi (Scalar.muli (BitVec.ofNat 32 b) 1024#32) (BitVec.ofNat 32 q) ↔ a * 1024 + p = b * 1024 + q := by
  constructor
  · intro h
    have := congrArg BitVec.toNat h
    rwa [word_toNat a p ha hp, word_toNat b q hb hq] at this
  · intro h
    apply BitVec.eq_of_toNat_eq
    rw [word_toNat a p ha hp, word_toNat b q hb hq, h]

/-- The global diagonal: the anchor's global row number is the key's. -/
theorem pay10_apply (i : grid0.Coords) (p q : Fin 1024) :
    k0_pay10 i (ix2 p q) = 1#1 ↔ (i 0).val * 1024 + p.val = (i 1).val * 1024 + q.val := by
  have h0 : (i 0).val < 8 := (i 0).isLt
  have h1 : (i 1).val < 8 := (i 1).isLt
  unfold k0_pay10
  show IntOp.cmpi .eq
      (broadcastTo S1024x1024 (addi (broadcast S1024x1 (Scalar.muli (BitVec.ofNat 32 (i 0).val) 1024#32)) (iota .tc S1024x1 32 [0] iota_S1024x1_d0_w32)) broadcasts_S1024x1_S1024x1024 (ix2 p q))
      (broadcastTo S1024x1024 (addi (broadcast S1x1024 (Scalar.muli (BitVec.ofNat 32 (i 1).val) 1024#32)) (iota .tc S1x1024 32 [1] iota_S1x1024_d1_w32)) broadcasts_S1x1024_S1024x1024 (ix2 p q)) = 1#1 ↔ _
  rw [broadcastTo_a1_ab_apply, broadcastTo_1b_ab_apply, IntOp.cmpi_eq]
  show IntOp.addi (Scalar.muli (BitVec.ofNat 32 (i 0).val) 1024#32) (iota .tc S1024x1 32 [0] iota_S1024x1_d0_w32 (ix2 p (0 : Fin 1)))
      = IntOp.addi (Scalar.muli (BitVec.ofNat 32 (i 1).val) 1024#32) (iota .tc S1x1024 32 [1] iota_S1x1024_d1_w32 (ix2 (0 : Fin 1) q)) ↔ _
  rw [iota_single_apply, iota_single_apply]
  exact word_eq_iff _ _ _ _ h0 h1 p.isLt q.isLt

/-! ### The named constants -/

theorem neg_big : Named.named (F := Ideal) κ "neg_big" (φ := .f32) 0xF149F2CA#32 = ⊥ :=
  IdealRules.named_const.ideal_named_scalar _ _ _ _ rfl
theorem pos_big : Named.named (F := Ideal) κ "pos_big" (φ := .f32) 0x7149F2CA#32 = ⊤ :=
  IdealRules.named_const.ideal_named_scalar _ _ _ _ rfl
theorem neg_big_2 : Named.named (F := Ideal) κ "neg_big_2" (φ := .f32) 0xEFA18F08#32 = ⊥ :=
  IdealRules.named_const.ideal_named_scalar _ _ _ _ rfl
theorem pos_big_2 : Named.named (F := Ideal) κ "pos_big_2" (φ := .f32) 0x6FA18F08#32 = ⊤ :=
  IdealRules.named_const.ideal_named_scalar _ _ _ _ rfl

/-! ### One step of the two running values -/

/-- The running maximum after a tile: what it held, joined with the tile's largest squared distance to a positive. -/
theorem pay1_apply (d2T : FVec Ideal S1024x1024 .f32) (sameT diagT : IVec S1024x1024 1) (prev : FVec Ideal S1024x1 .f32) (p : Fin 1024) :
    k0_pay1 (F := Ideal) d2T sameT diagT prev (ix2 p (0 : Fin 1))
      = max (prev (ix2 p (0 : Fin 1))) (Finset.univ.sup fun q : Fin 1024 =>
          if sameT (ix2 p q) = 1#1 ∧ ¬ diagT (ix2 p q) = 1#1 ∧ 0 < d2T (ix2 p q) then d2T (ix2 p q) else ⊥) := by
  unfold k0_pay1
  rw [shapeCast_self, maximumf_apply, shapeCast_a_a1_apply]
  refine congrArg (max _) ?_
  refine (rowMax_apply _ _ _ _ _ ofBits_neg_inf p).trans ?_
  refine Finset.sup_congr rfl fun q _ => ?_
  rw [select_apply, broadcast_apply, neg_big]
  refine select_of_iff _ _ ?_ _ _
  show IntOp.andi (sameT (ix2 p q)) (IntOp.andi (IntOp.xori (diagT (ix2 p q)) 1#1)
      (FloatOps.cmpf .ogt (d2T (ix2 p q)) (Ideal.ofBits .f32 0x00000000#32))) = 1#1 ↔ _
  rw [andi_eq_one, andi_eq_one, xori_one_eq_one, Ideal.cmpf_def, cmp_ogt_eq_one, Ideal.ofBits_zero_f32]

/-- The running minimum after a tile: what it held, met with the tile's smallest squared distance to a negative. -/
theorem pay2_apply (d2T : FVec Ideal S1024x1024 .f32) (sameT : IVec S1024x1024 1) (prev : FVec Ideal S1024x1 .f32) (p : Fin 1024) :
    k0_pay2 (F := Ideal) d2T sameT prev (ix2 p (0 : Fin 1))
      = min (prev (ix2 p (0 : Fin 1))) (Finset.univ.inf fun q : Fin 1024 =>
          if sameT (ix2 p q) = 1#1 then ⊤ else d2T (ix2 p q)) := by
  unfold k0_pay2
  rw [shapeCast_self, minimumf_apply, shapeCast_a_a1_apply]
  refine congrArg (min _) ?_
  refine (rowMin_apply _ _ _ _ _ ofBits_pos_inf p).trans ?_
  refine Finset.inf_congr rfl fun q _ => ?_
  rw [select_apply, broadcast_apply, pos_big]
  have hc : xori sameT (constantI S1024x1024 1 1#1) (ix2 p q) = 1#1 ↔ ¬ sameT (ix2 p q) = 1#1 := xori_one_eq_one _
  rw [select_of_iff _ _ hc]
  by_cases h : sameT (ix2 p q) = 1#1
  · rw [if_neg (not_not_intro h), if_pos h]
  · rw [if_pos h, if_neg h]

/-! ### The row's hinge term and count -/

/-- The row counts: the running maximum has left `⊥` and the running minimum has left `⊤`. -/
theorem pay3_apply (hp hn : FVec Ideal S1024x1 .f32) (j : S1024x1.Idx) :
    k0_pay3 (F := Ideal) hp hn j = 1#1 ↔ ⊥ < hp j ∧ hn j < ⊤ := by
  unfold k0_pay3
  show IntOp.andi (FloatOps.cmpf .ogt (hp j) (Named.named (F := Ideal) κ "neg_big_2" (φ := .f32) 0xEFA18F08#32))
      (FloatOps.cmpf .olt (hn j) (Named.named (F := Ideal) κ "pos_big_2" (φ := .f32) 0x6FA18F08#32)) = 1#1 ↔ _
  rw [andi_eq_one, Ideal.cmpf_def, Ideal.cmpf_def, cmp_ogt_eq_one, cmp_olt_eq_one, neg_big_2, pos_big_2]

theorem pay4_apply (hp hn : FVec Ideal S1024x1 .f32) (j : S1024x1.Idx) :
    k0_pay4 (F := Ideal) hp hn hp hn j
      = if ⊥ < hp j ∧ hn j < ⊤ then max (Ideal.sqrt (max (hp j) 0) - Ideal.sqrt (max (hn j) 0) + Cert.Spec.margin) 0 else 0 := by
  unfold k0_pay4
  rw [select_apply, select_of_iff _ _ (pay3_apply hp hn j)]
  show (if _ then max (Ideal.sqrt (max (hp j) (Ideal.ofBits .f32 0x00000000#32)) - Ideal.sqrt (max (hn j) (Ideal.ofBits .f32 0x00000000#32))
      + Ideal.ofBits .f32 0x3DCCCCCD#32) (Ideal.ofBits .f32 0x00000000#32) else Ideal.ofBits .f32 0x00000000#32) = _
  rw [Ideal.ofBits_zero_f32]
  rfl

theorem pay5_apply (hp hn : FVec Ideal S1024x1 .f32) (j : S1024x1.Idx) :
    k0_pay5 (F := Ideal) hp hn j = if ⊥ < hp j ∧ hn j < ⊤ then 1 else 0 := by
  unfold k0_pay5
  rw [sitofp_apply, extui_apply]
  have e1 : ((1#1 : BitVec 1).setWidth 32).toInt = 1 := by decide
  have e0 : ((0#1 : BitVec 1).setWidth 32).toInt = 0 := by decide
  by_cases h : ⊥ < hp j ∧ hn j < ⊤
  · rw [if_pos h, (pay3_apply hp hn j).mpr h]
    show (((((1#1 : BitVec 1).setWidth 32).toInt : ℤ) : ℝ) : EReal) = 1
    rw [e1]; norm_num
  · rw [if_neg h, eq_zero_of_ne_one (fun e => h ((pay3_apply hp hn j).mp e))]
    show (((((0#1 : BitVec 1).setWidth 32).toInt : ℤ) : ℝ) : EReal) = 0
    rw [e0]; norm_num

end Cert.KernelIdeal.HandValue

end
-- ==== Proof.KIRow.lean ====
/-
  The two running buffers along a row of the grid, and the row's hinge term and count at its last point, as the
  specification's quantities mined on squared distances.
-/
import proofs.«155192_j82746839925071_2_alg».proof.Proof.KIBlocks
import proofs.«155192_j82746839925071_2_alg».proof.Proof.KITile

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Classical

variable (m : (ℓ : Loc nD τ sig) → Buf (Elt Ideal) ℓ)

/-- What a column offers to a row's maximum over positives, and to its minimum over negatives. -/
def fpos (x : Cert.Spec.SX.Idx → EReal) (lab : Cert.Spec.SL.Idx → BitVec 32) (R c : Fin 8192) : EReal :=
  if Cert.Spec.posSq x lab R c then Cert.Spec.d2 x R c else ⊥
def fneg (x : Cert.Spec.SX.Idx → EReal) (lab : Cert.Spec.SL.Idx → BitVec 32) (R c : Fin 8192) : EReal :=
  if Cert.Spec.same lab R c then ⊤ else Cert.Spec.d2 x R c

/-- A grid point's two coordinates: its row and its column. -/
theorem coords_facts : ∀ t : Fin cfg0.N, (grid0.coords t (0 : Fin 2)).val = t.val / 8 ∧ (grid0.coords t (1 : Fin 2)).val = t.val % 8 :=
  (by decide +kernel : ∀ t : Fin grid0.N, _)

/-! ### The three tiles at a point -/

theorem d2At_apply (c : Dev nD) (t : Fin cfg0.N) (p q : Fin 1024) (R C : Fin 8192)
    (hR : R.val = t.val / 8 * 1024 + p.val) (hC : C.val = t.val % 8 * 1024 + q.val) :
    d2At m c t (ix2 p q) = Cert.Spec.d2 (Xof m c) R C := by
  unfold d2At
  refine (pay8_apply (iblk m c 0 t) (iblk m c 1 t) (iblk m c 2 t) (iblk m c 3 t) p q).trans ?_
  have e2 := iblk2_apply m c t p 0 R hR
  have e3 := iblk3_apply m c t 0 q C hC
  rw [e2, e3]
  unfold Cert.Spec.d2 Cert.Spec.dot
  refine congrArg (fun s : EReal => max (Cert.Spec.sq (Xof m c) R + Cert.Spec.sq (Xof m c) C - Cert.Spec.two * s) 0) ?_
  refine Finset.sum_congr rfl fun k _ => ?_
  rw [iblk0_apply m c t p k R hR, iblk1_apply m c t q k C hC]

theorem sameAt_apply (c : Dev nD) (t : Fin cfg0.N) (p q : Fin 1024) (R C : Fin 8192)
    (hR : R.val = t.val / 8 * 1024 + p.val) (hC : C.val = t.val % 8 * 1024 + q.val) :
    sameAt m c t (ix2 p q) = 1#1 ↔ Cert.Spec.same (Lof m c) R C := by
  unfold sameAt
  refine (pay9_apply (iblk m c 4 t) (iblk m c 5 t) p q).trans ?_
  rw [iblk4_apply m c t p 0 R hR, iblk5_apply m c t 0 q C hC]
  rfl

theorem diagAt_apply (t : Fin cfg0.N) (p q : Fin 1024) (R C : Fin 8192)
    (hR : R.val = t.val / 8 * 1024 + p.val) (hC : C.val = t.val % 8 * 1024 + q.val) :
    diagAt t (ix2 p q) = 1#1 ↔ R = C := by
  unfold diagAt
  refine (pay10_apply (grid0.coords t) p q).trans ?_
  rw [(coords_facts t).1, (coords_facts t).2]
  constructor
  · intro h; exact Fin.ext (by omega)
  · intro h; have := congrArg Fin.val h; omega

/-! ### One point's step of the two running values -/

/-- The global column of local column `q` at point `t`. -/
abbrev colOf (t : Fin cfg0.N) (q : Fin 1024) : Fin 8192 :=
  ⟨t.val % 8 * 1024 + q.val, by have := q.isLt; have := Nat.mod_lt t.val (show 8 > 0 by decide); omega⟩

theorem hp_step (c : Dev nD) (t : Fin cfg0.N) (p : Fin 1024) (R : Fin 8192) (hR : R.val = t.val / 8 * 1024 + p.val)
    (prev : FVec Ideal S1024x1 .f32) :
    k0_pay1 (F := Ideal) (d2At m c t) (sameAt m c t) (diagAt t) prev (ix2 p (0 : Fin 1))
      = max (prev (ix2 p (0 : Fin 1))) (Finset.univ.sup fun q : Fin 1024 =>
          fpos (Xof m c) (Lof m c) R (colOf t q)) := by
  rw [pay1_apply]
  refine congrArg (max _) (Finset.sup_congr rfl fun q _ => ?_)
  unfold fpos
  rw [d2At_apply m c t p q R (colOf t q) hR rfl]
  refine if_congr ?_ rfl rfl
  unfold Cert.Spec.posSq
  rw [sameAt_apply m c t p q R (colOf t q) hR rfl, diagAt_apply t p q R (colOf t q) hR rfl]

theorem hn_step (c : Dev nD) (t : Fin cfg0.N) (p : Fin 1024) (R : Fin 8192) (hR : R.val = t.val / 8 * 1024 + p.val)
    (prev : FVec Ideal S1024x1 .f32) :
    k0_pay2 (F := Ideal) (d2At m c t) (sameAt m c t) prev (ix2 p (0 : Fin 1))
      = min (prev (ix2 p (0 : Fin 1))) (Finset.univ.inf fun q : Fin 1024 =>
          fneg (Xof m c) (Lof m c) R (colOf t q)) := by
  rw [pay2_apply]
  refine congrArg (min _) (Finset.inf_congr rfl fun q _ => ?_)
  unfold fneg
  rw [d2At_apply m c t p q R (colOf t q) hR rfl]
  exact if_congr (sameAt_apply m c t p q R (colOf t q) hR rfl) rfl rfl

theorem pay6_apply (j : S1024x1.Idx) : k0_pay6 (F := Ideal) j = ⊥ := by
  unfold k0_pay6
  rw [shapeCast_self, broadcast_apply, neg_big]
theorem pay7_apply (j : S1024x1.Idx) : k0_pay7 (F := Ideal) j = ⊤ := by
  unfold k0_pay7
  rw [shapeCast_self, broadcast_apply, pos_big]

/-! ### The two running values along a row of the grid -/

/-- The largest offer to a row's maximum over the columns below `b`, and the smallest to its minimum. -/
def supTo (x : Cert.Spec.SX.Idx → EReal) (lab : Cert.Spec.SL.Idx → BitVec 32) (R : Fin 8192) (b : ℕ) : EReal :=
  Finset.univ.sup fun c : Fin 8192 => if c.val < b then fpos x lab R c else ⊥
def infTo (x : Cert.Spec.SX.Idx → EReal) (lab : Cert.Spec.SL.Idx → BitVec 32) (R : Fin 8192) (b : ℕ) : EReal :=
  Finset.univ.inf fun c : Fin 8192 => if c.val < b then fneg x lab R c else ⊤

theorem scrAt_congr (c : Dev nD) (n n' : ℕ) (hn : n < cfg0.N) (hn' : n' < cfg0.N) (e : n = n') :
    scrAt m c n hn = scrAt m c n' hn' := by
  subst e; rfl

/-- One point: from the values over the columns before the point's block to those over the columns through it. -/
theorem hp_after (c : Dev nD) (t : Fin cfg0.N) (p : Fin 1024) (R : Fin 8192) (hR : R.val = t.val / 8 * 1024 + p.val)
    (prev : FVec Ideal S1024x1 .f32) (hprev : prev (ix2 p (0 : Fin 1)) = supTo (Xof m c) (Lof m c) R (t.val % 8 * 1024)) :
    k0_pay1 (F := Ideal) (d2At m c t) (sameAt m c t) (diagAt t) prev (ix2 p (0 : Fin 1))
      = supTo (Xof m c) (Lof m c) R (t.val % 8 * 1024 + 1024) := by
  rw [hp_step m c t p R hR, hprev]
  unfold supTo
  exact (sup_cut (fpos (Xof m c) (Lof m c) R) (t.val % 8 * 1024) (by have := Nat.mod_lt t.val (show 8 > 0 by decide); omega)).symm

theorem hn_after (c : Dev nD) (t : Fin cfg0.N) (p : Fin 1024) (R : Fin 8192) (hR : R.val = t.val / 8 * 1024 + p.val)
    (prev : FVec Ideal S1024x1 .f32) (hprev : prev (ix2 p (0 : Fin 1)) = infTo (Xof m c) (Lof m c) R (t.val % 8 * 1024)) :
    k0_pay2 (F := Ideal) (d2At m c t) (sameAt m c t) prev (ix2 p (0 : Fin 1))
      = infTo (Xof m c) (Lof m c) R (t.val % 8 * 1024 + 1024) := by
  rw [hn_step m c t p R hR, hprev]
  unfold infTo
  exact (inf_cut (fneg (Xof m c) (Lof m c) R) (t.val % 8 * 1024) (by have := Nat.mod_lt t.val (show 8 > 0 by decide); omega)).symm

theorem scr_point (c : Dev nD) (t : Fin cfg0.N) (p : Fin 1024) (R : Fin 8192) (hR : R.val = t.val / 8 * 1024 + p.val)
    (hprev : ¬ t.val % 8 = 0 →
      (scrAt m c (t.val - 1) (Nat.lt_of_le_of_lt (Nat.sub_le _ _) t.isLt)).1 (ix2 p (0 : Fin 1)) = supTo (Xof m c) (Lof m c) R (t.val % 8 * 1024)
      ∧ (scrAt m c (t.val - 1) (Nat.lt_of_le_of_lt (Nat.sub_le _ _) t.isLt)).2 (ix2 p (0 : Fin 1)) = infTo (Xof m c) (Lof m c) R (t.val % 8 * 1024)) :
    (scrAt m c t.val t.isLt).1 (ix2 p (0 : Fin 1)) = supTo (Xof m c) (Lof m c) R (t.val % 8 * 1024 + 1024)
    ∧ (scrAt m c t.val t.isLt).2 (ix2 p (0 : Fin 1)) = infTo (Xof m c) (Lof m c) R (t.val % 8 * 1024 + 1024) := by
  by_cases h : t.val % 8 = 0
  · rw [scrAt_first m c t h]
    refine ⟨hp_after m c t p R hR _ ?_, hn_after m c t p R hR _ ?_⟩
    · rw [pay6_apply, h, Nat.zero_mul]; unfold supTo; exact (sup_none _).symm
    · rw [pay7_apply, h, Nat.zero_mul]; unfold infTo; exact (inf_none _).symm
  · rw [scrAt_next m c t h]
    exact ⟨hp_after m c t p R hR _ (hprev h).1, hn_after m c t p R hR _ (hprev h).2⟩

/-- Along row `i` of the grid: after the point of column `j` the two buffers hold, at local row `p`, the maximum over
    positives and the minimum over negatives among the first `(j + 1) · 1024` columns. -/
theorem scr_inv (c : Dev nD) (i : Fin 8) (p : Fin 1024) (R : Fin 8192) (hR : R.val = i.val * 1024 + p.val) :
    ∀ (j : ℕ) (hj : j < 8) (hn : i.val * 8 + j < cfg0.N),
      (scrAt m c (i.val * 8 + j) hn).1 (ix2 p (0 : Fin 1)) = supTo (Xof m c) (Lof m c) R (j * 1024 + 1024)
      ∧ (scrAt m c (i.val * 8 + j) hn).2 (ix2 p (0 : Fin 1)) = infTo (Xof m c) (Lof m c) R (j * 1024 + 1024) := by
  intro j
  induction j with
  | zero =>
    intro hj hn
    have h1 := scr_point m c ⟨i.val * 8 + 0, hn⟩ p R (by show R.val = (i.val * 8 + 0) / 8 * 1024 + p.val; omega)
      (fun h => absurd (show (i.val * 8 + 0) % 8 = 0 by omega) h)
    have e : (i.val * 8 + 0) % 8 * 1024 + 1024 = 0 * 1024 + 1024 := by omega
    exact e ▸ h1
  | succ j ih =>
    intro hj hn
    have hn' : i.val * 8 + j < cfg0.N := by omega
    have ih' := ih (by omega) hn'
    have e0 : (i.val * 8 + (j + 1)) % 8 * 1024 = j * 1024 + 1024 := by omega
    have h1 := scr_point m c ⟨i.val * 8 + (j + 1), hn⟩ p R (by show R.val = (i.val * 8 + (j + 1)) / 8 * 1024 + p.val; omega)
      (fun _ => by
        show (scrAt m c (i.val * 8 + (j + 1) - 1) _).1 _ = supTo _ _ R ((i.val * 8 + (j + 1)) % 8 * 1024) ∧ (scrAt m c (i.val * 8 + (j + 1) - 1) _).2 _ = infTo _ _ R ((i.val * 8 + (j + 1)) % 8 * 1024)
        rw [scrAt_congr m c (i.val * 8 + (j + 1) - 1) (i.val * 8 + j) _ hn' (by omega), e0]
        exact ih')
    have e : (i.val * 8 + (j + 1)) % 8 * 1024 + 1024 = (j + 1) * 1024 + 1024 := by omega
    exact e ▸ h1

/-- At the last point of row `i` the two buffers hold the row's mined values over all columns. -/
theorem scr_last (c : Dev nD) (i : Fin 8) (r : Fin 1024) (hn : i.val * 8 + 7 < cfg0.N) (hR : i.val * 1024 + r.val < 8192) :
    (scrAt m c (i.val * 8 + 7) hn).1 (ix2 r (0 : Fin 1)) = Cert.Spec.hpSq (Xof m c) (Lof m c) ⟨i.val * 1024 + r.val, hR⟩
    ∧ (scrAt m c (i.val * 8 + 7) hn).2 (ix2 r (0 : Fin 1)) = Cert.Spec.hnSq (Xof m c) (Lof m c) ⟨i.val * 1024 + r.val, hR⟩ := by
  obtain ⟨h1, h2⟩ := scr_inv m c i r ⟨i.val * 1024 + r.val, hR⟩ rfl 7 (by omega) hn
  rw [h1, h2]
  exact ⟨(sup_all _).trans rfl, (inf_all _).trans rfl⟩

/-! ### The row's hinge term and count -/

theorem perAt_row (c : Dev nD) (i : Fin 8) (r : Fin 1024) (hn : i.val * 8 + 7 < cfg0.N) (hR : i.val * 1024 + r.val < 8192) :
    perAt (F := Ideal) m c ⟨i.val * 8 + 7, hn⟩ (ix2 r (0 : Fin 1))
      = Cert.Spec.perSq (Xof m c) (Lof m c) ⟨i.val * 1024 + r.val, hR⟩ := by
  obtain ⟨h1, h2⟩ := scr_last m c i r hn hR
  unfold perAt
  rw [pay4_apply]
  dsimp only
  rw [h1, h2]
  unfold Cert.Spec.perSq
  exact if_congr Iff.rfl rfl rfl

theorem cntAt_row (c : Dev nD) (i : Fin 8) (r : Fin 1024) (hn : i.val * 8 + 7 < cfg0.N) (hR : i.val * 1024 + r.val < 8192) :
    cntAt (F := Ideal) m c ⟨i.val * 8 + 7, hn⟩ (ix2 r (0 : Fin 1))
      = Cert.Spec.cntSq (Xof m c) (Lof m c) ⟨i.val * 1024 + r.val, hR⟩ := by
  obtain ⟨h1, h2⟩ := scr_last m c i r hn hR
  unfold cntAt
  rw [pay5_apply]
  dsimp only
  rw [h1, h2]
  unfold Cert.Spec.cntSq
  exact if_congr Iff.rfl rfl rfl

end Cert.KernelIdeal.HandValue

end
-- ==== Proof.LossLattice.lean ====
/-
  Order facts on the extended reals: the coercion of a finite real sum, a monotone map moved through a finite
  maximum over a marked subfamily and through a finite minimum padded with `⊤`, when such a maximum has left `⊥`
  and such a minimum has left `⊤`, and the clamped square root `rt t = √(max t 0)`.
-/
import Idealize.ShloMosaic.PureOps.Ideal

noncomputable section

namespace Cert.Spec

open Idealize.ShloMosaic

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-! ### A monotone map through a finite maximum or minimum -/

/-- A monotone map commutes with the maximum over a marked subfamily that is not empty (the unmarked members
    contribute `⊥` on both sides). -/
theorem map_sup_ite {ι : Type} [Fintype ι] (p : ι → Prop) [DecidablePred p] (v : ι → EReal) {g : EReal → EReal}
    (hg : Monotone g) (hex : ∃ c, p c) :
    g (Finset.univ.sup fun c => if p c then v c else ⊥) = Finset.univ.sup fun c => if p c then g (v c) else ⊥ := by
  obtain ⟨c1, hc1⟩ := hex
  have hm1 : g (v c1) ≤ Finset.univ.sup fun c => if p c then g (v c) else ⊥ := by
    have h := Finset.le_sup (f := fun c => if p c then g (v c) else ⊥) (Finset.mem_univ c1)
    simpa only [if_pos hc1] using h
  apply le_antisymm
  · obtain ⟨c0, -, h0⟩ := Finset.exists_mem_eq_sup Finset.univ ⟨c1, Finset.mem_univ c1⟩
      (fun c => if p c then v c else ⊥)
    rw [h0]
    by_cases hp : p c0
    · have h := Finset.le_sup (f := fun c => if p c then g (v c) else ⊥) (Finset.mem_univ c0)
      simpa only [if_pos hp] using h
    · simp only [if_neg hp]
      exact le_trans (hg bot_le) hm1
  · apply Finset.sup_le
    intro c _
    by_cases hp : p c
    · simp only [if_pos hp]
      apply hg
      have h := Finset.le_sup (f := fun c => if p c then v c else ⊥) (Finset.mem_univ c)
      simpa only [if_pos hp] using h
    · simp only [if_neg hp]
      exact bot_le

/-- A monotone map that fixes `⊤` commutes with a finite minimum padded with `⊤`. -/
theorem map_inf_ite {ι : Type} [Fintype ι] (s : ι → Prop) [DecidablePred s] (v : ι → EReal) {g : EReal → EReal}
    (hg : Monotone g) (htop : g ⊤ = ⊤) :
    g (Finset.univ.inf fun c => if s c then ⊤ else v c) = Finset.univ.inf fun c => if s c then ⊤ else g (v c) := by
  rw [Finset.comp_inf_eq_inf_comp_of_is_total g hg htop]
  congr 1
  funext c
  by_cases h : s c
  · simp only [Function.comp, if_pos h, htop]
  · simp only [Function.comp, if_neg h]

/-- The maximum over a marked subfamily whose members are above `⊥` has left `⊥` exactly when a member is marked. -/
theorem bot_lt_sup_ite_iff {ι : Type} [Fintype ι] (p : ι → Prop) [DecidablePred p] (v : ι → EReal)
    (hv : ∀ c, ⊥ < v c) :
    (⊥ < Finset.univ.sup fun c => if p c then v c else ⊥) ↔ ∃ c, p c := by
  rw [Finset.lt_sup_iff]
  constructor
  · rintro ⟨c, -, hc⟩
    refine ⟨c, ?_⟩
    by_contra hp
    simp only [if_neg hp, lt_self_iff_false] at hc
  · rintro ⟨c, hp⟩
    refine ⟨c, Finset.mem_univ c, ?_⟩
    simp only [if_pos hp]
    exact hv c

/-- The minimum padded with `⊤` of members below `⊤` has left `⊤` exactly when a member is not padded. -/
theorem inf_ite_lt_top_iff {ι : Type} [Fintype ι] (s : ι → Prop) [DecidablePred s] (v : ι → EReal)
    (hv : ∀ c, v c < ⊤) :
    ((Finset.univ.inf fun c => if s c then ⊤ else v c) < ⊤) ↔ ∃ c, ¬ s c := by
  rw [Finset.inf_lt_iff]
  constructor
  · rintro ⟨c, -, hc⟩
    refine ⟨c, ?_⟩
    intro hs
    simp only [if_pos hs, lt_self_iff_false] at hc
  · rintro ⟨c, hs⟩
    refine ⟨c, Finset.mem_univ c, ?_⟩
    simp only [if_neg hs]
    exact hv c

/-! ### The clamped square root -/

/-- The square root of the clamp at zero. -/
def rt (t : EReal) : EReal := Ideal.sqrt (max t 0)

theorem rt_coe (r : ℝ) : rt (r : EReal) = ((Real.sqrt r : ℝ) : EReal) := by
  have hmax : max (r : EReal) 0 = ((max r 0 : ℝ) : EReal) := by
    rw [coe_max, EReal.coe_zero]
  rw [rt, hmax, Ideal.sqrt_coe, if_neg (not_lt.mpr (le_max_right r 0))]
  rcases le_total r 0 with h | h
  · rw [max_eq_right h, Real.sqrt_zero, Real.sqrt_eq_zero_of_nonpos h]
  · rw [max_eq_left h]

theorem rt_bot : rt ⊥ = 0 := by
  have hmax : max (⊥ : EReal) 0 = ((0 : ℝ) : EReal) := by
    rw [EReal.coe_zero]; exact max_eq_right bot_le
  rw [rt, hmax, Ideal.sqrt_coe, if_neg (lt_irrefl 0), Real.sqrt_zero, EReal.coe_zero]

theorem rt_top : rt ⊤ = ⊤ := by
  have hmax : max (⊤ : EReal) 0 = ⊤ := max_eq_left le_top
  rw [rt, hmax, Ideal.sqrt_top]

theorem rt_nonneg (t : EReal) : 0 ≤ rt t := by
  induction t with
  | bot => rw [rt_bot]
  | coe r => rw [rt_coe]; exact EReal.coe_nonneg.mpr (Real.sqrt_nonneg r)
  | top => rw [rt_top]; exact le_top

/-- The clamped square root is monotone on the extended reals. -/
theorem rt_mono : Monotone rt := by
  intro a b hab
  induction b with
  | top => rw [rt_top]; exact le_top
  | bot =>
    have ha : a = ⊥ := le_bot_iff.mp hab
    rw [ha]
  | coe s =>
    induction a with
    | bot => rw [rt_bot]; exact rt_nonneg _
    | top => exact absurd hab (not_le.mpr (EReal.coe_lt_top s))
    | coe r =>
      rw [rt_coe, rt_coe]
      exact EReal.coe_le_coe_iff.mpr (Real.sqrt_le_sqrt (EReal.coe_le_coe_iff.mp hab))

end Cert.Spec

end
-- ==== Proof.LossReal.lean ====
/-
  Under `Finite x` every squared norm, inner product and clamped squared distance is a real number; the clamped
  squared distance is not negative and vanishes on the diagonal; the distance is the clamped square root of the
  clamped squared distance, positive exactly when that is; hence the two notions of a positive agree.
-/
import proofs.«155192_j82746839925071_2_alg».proof.Proof.Spec
import proofs.«155192_j82746839925071_2_alg».proof.Proof.LossLattice

noncomputable section

namespace Cert.Spec

open Idealize.ShloMosaic Idealize.ShloMosaic.ValueIdx
open Classical

/-- The word `0x40000000` is the real number two. -/
theorem two_eq : two = ((2 : ℝ) : EReal) := by
  simp [two, Ideal.ofBits, Ideal.ieee, -EReal.coe_mul]; norm_num

variable (x : SX.Idx → EReal) (lab : SL.Idx → BitVec 32)

/-- The clamped squared distances form a real matrix without negative entries and with zero diagonal. -/
theorem d2_real (hx : Finite x) :
    ∃ D : Fin 8192 → Fin 8192 → ℝ, (∀ r c, 0 ≤ D r c) ∧ (∀ r, D r r = 0) ∧ ∀ r c, d2 x r c = ((D r c : ℝ) : EReal) := by
  choose a ha using hx
  have hdot : ∀ r c, dot x r c = ((∑ k : Fin 128, a (ix2 r k) * a (ix2 c k) : ℝ) : EReal) := by
    intro r c
    unfold dot
    rw [coe_sum]
    refine Finset.sum_congr rfl fun k _ => ?_
    rw [ha, ha, EReal.coe_mul]
  have hsq : ∀ r, sq x r = ((∑ k : Fin 128, a (ix2 r k) * a (ix2 r k) : ℝ) : EReal) := fun r => hdot r r
  refine ⟨fun r c => max ((∑ k : Fin 128, a (ix2 r k) * a (ix2 r k)) + (∑ k : Fin 128, a (ix2 c k) * a (ix2 c k))
      - 2 * (∑ k : Fin 128, a (ix2 r k) * a (ix2 c k))) 0, fun r c => le_max_right _ _, fun r => ?_, fun r c => ?_⟩
  · have h : (∑ k : Fin 128, a (ix2 r k) * a (ix2 r k)) + (∑ k : Fin 128, a (ix2 r k) * a (ix2 r k))
        - 2 * (∑ k : Fin 128, a (ix2 r k) * a (ix2 r k)) = 0 := by ring
    show max _ 0 = 0
    rw [h, max_self]
  · unfold d2
    rw [hsq, hsq, hdot, two_eq, ← EReal.coe_add, ← EReal.coe_mul, ← EReal.coe_sub, coe_max, EReal.coe_zero]

/-- The distance is the clamped square root of the clamped squared distance. -/
theorem dist_eq_rt (hx : Finite x) (r c : Fin 8192) : dist x r c = rt (d2 x r c) := by
  obtain ⟨D, hD0, -, hD⟩ := d2_real x hx
  unfold dist
  rw [hD, rt_coe]
  by_cases hpos : 0 < D r c
  · have hp : (0 : EReal) < ((D r c : ℝ) : EReal) := EReal.coe_pos.mpr hpos
    rw [if_pos hp, if_pos hp, Ideal.sqrt_coe, if_neg (not_lt.mpr (hD0 r c))]
  · have hz : D r c = 0 := le_antisymm (not_lt.mp hpos) (hD0 r c)
    have hp : ¬ (0 : EReal) < ((D r c : ℝ) : EReal) := fun h => hpos (EReal.coe_pos.mp h)
    rw [if_neg hp, hz, Real.sqrt_zero, EReal.coe_zero]

/-- The distance is positive exactly when the clamped squared distance is. -/
theorem dist_pos_iff (hx : Finite x) (r c : Fin 8192) : 0 < dist x r c ↔ 0 < d2 x r c := by
  rw [dist_eq_rt x hx]
  obtain ⟨D, -, -, hD⟩ := d2_real x hx
  rw [hD, rt_coe, EReal.coe_pos, EReal.coe_pos, Real.sqrt_pos]

/-- The clamped squared distance of a row to itself is zero. -/
theorem d2_self (hx : Finite x) (r : Fin 8192) : d2 x r r = 0 := by
  obtain ⟨D, -, hDr, hD⟩ := d2_real x hx
  rw [hD, hDr, EReal.coe_zero]

/-- A clamped squared distance is above `⊥` and below `⊤`. -/
theorem bot_lt_d2 (hx : Finite x) (r c : Fin 8192) : ⊥ < d2 x r c := by
  obtain ⟨D, -, -, hD⟩ := d2_real x hx
  rw [hD]; exact EReal.bot_lt_coe _

theorem d2_lt_top (hx : Finite x) (r c : Fin 8192) : d2 x r c < ⊤ := by
  obtain ⟨D, -, -, hD⟩ := d2_real x hx
  rw [hD]; exact EReal.coe_lt_top _

/-- The two notions of a positive agree: a positive clamped squared distance already excludes the diagonal. -/
theorem posSq_iff_posD (hx : Finite x) (r c : Fin 8192) : posSq x lab r c ↔ posD x lab r c := by
  unfold posSq posD
  constructor
  · rintro ⟨hs, -, h⟩
    exact ⟨hs, (dist_pos_iff x hx r c).mpr h⟩
  · rintro ⟨hs, h⟩
    have h2 : 0 < d2 x r c := (dist_pos_iff x hx r c).mp h
    refine ⟨hs, ?_, h2⟩
    intro e
    rw [e, d2_self x hx c] at h2
    exact lt_irrefl _ h2

end Cert.Spec

end
-- ==== Proof.LossMath.lean ====
/-
  The loss mined on squared distances equals the loss mined on distances when every embedding entry is real:
  row by row the clamped square root of the hardest squared distances is the hardest distance, the two notions of
  a counted row agree, hence the hinge terms and the counts agree.
-/
import proofs.«155192_j82746839925071_2_alg».proof.Proof.Spec
import proofs.«155192_j82746839925071_2_alg».proof.Proof.LossLattice
import proofs.«155192_j82746839925071_2_alg».proof.Proof.LossReal

noncomputable section

namespace Cert.Spec

open Idealize.ShloMosaic Idealize.ShloMosaic.ValueIdx
open Classical

variable (x : SX.Idx → EReal) (lab : SL.Idx → BitVec 32)

/-- On a row with a positive, the clamped square root of the largest squared distance to a positive is the largest
    distance to a positive. -/
theorem rt_hpSq (hx : Finite x) (r : Fin 8192) (hex : ∃ c, posSq x lab r c) : rt (hpSq x lab r) = hpD x lab r := by
  unfold hpSq hpD
  rw [map_sup_ite (fun c => posSq x lab r c) (fun c => d2 x r c) rt_mono hex]
  congr 1
  funext c
  by_cases h : posSq x lab r c
  · rw [if_pos h, if_pos ((posSq_iff_posD x lab hx r c).mp h), dist_eq_rt x hx]
  · rw [if_neg h, if_neg (mt (posSq_iff_posD x lab hx r c).mpr h)]

/-- The clamped square root of the smallest squared distance to a negative is the smallest distance to a negative. -/
theorem rt_hnSq (hx : Finite x) (r : Fin 8192) : rt (hnSq x lab r) = hnD x lab r := by
  unfold hnSq hnD
  rw [map_inf_ite (fun c => same lab r c) (fun c => d2 x r c) rt_mono rt_top]
  congr 1
  funext c
  rw [dist_eq_rt x hx]

/-- The largest squared distance to a positive has left `⊥` exactly when the row has a positive. -/
theorem bot_lt_hpSq_iff (hx : Finite x) (r : Fin 8192) : ⊥ < hpSq x lab r ↔ ∃ c, posSq x lab r c := by
  unfold hpSq
  exact bot_lt_sup_ite_iff (fun c => posSq x lab r c) (fun c => d2 x r c) (fun c => bot_lt_d2 x hx r c)

/-- The smallest squared distance to a negative has left `⊤` exactly when the row has a negative. -/
theorem hnSq_lt_top_iff (hx : Finite x) (r : Fin 8192) : hnSq x lab r < ⊤ ↔ ∃ c, ¬ same lab r c := by
  unfold hnSq
  exact inf_ite_lt_top_iff (fun c => same lab r c) (fun c => d2 x r c) (fun c => d2_lt_top x hx r c)

/-- The two notions of a counted row agree. -/
theorem validSq_iff_validD (hx : Finite x) (r : Fin 8192) : validSq x lab r ↔ validD x lab r := by
  unfold validSq validD
  rw [bot_lt_hpSq_iff x lab hx r, hnSq_lt_top_iff x lab hx r]
  exact and_congr_left' (exists_congr fun c => posSq_iff_posD x lab hx r c)

/-- The hinge terms agree row by row. -/
theorem perSq_eq_perD (hx : Finite x) (r : Fin 8192) : perSq x lab r = perD x lab r := by
  unfold perSq perD
  by_cases hv : validSq x lab r
  · have hex : ∃ c, posSq x lab r c := (bot_lt_hpSq_iff x lab hx r).mp hv.1
    rw [if_pos hv, if_pos ((validSq_iff_validD x lab hx r).mp hv)]
    show max (rt (hpSq x lab r) - rt (hnSq x lab r) + margin) 0 = _
    rw [rt_hpSq x lab hx r hex, rt_hnSq x lab hx r]
  · rw [if_neg hv, if_neg (mt (validSq_iff_validD x lab hx r).mpr hv)]

/-- The counts agree row by row. -/
theorem cntSq_eq_cntD (hx : Finite x) (r : Fin 8192) : cntSq x lab r = cntD x lab r := by
  unfold cntSq cntD
  by_cases hv : validSq x lab r
  · rw [if_pos hv, if_pos ((validSq_iff_validD x lab hx r).mp hv)]
  · rw [if_neg hv, if_neg (mt (validSq_iff_validD x lab hx r).mpr hv)]

/-- The loss mined on squared distances is the loss mined on distances. -/
theorem lossSq_eq_lossD (x : SX.Idx → EReal) (lab : SL.Idx → BitVec 32) (hx : Finite x) : lossSq x lab = lossD x lab := by
  unfold lossSq lossD
  rw [Finset.sum_congr rfl fun r _ => perSq_eq_perD x lab hx r, Finset.sum_congr rfl fun r _ => cntSq_eq_cntD x lab hx r]

end Cert.Spec

end
-- ==== Proof.RefFinite.lean ====
/-
  The printed precondition `all (|x| < +∞)`, read at the extended reals: if it evaluates to true then every
  entry of `x` is a real number. The word `0x7F800000` is `⊤`; `|t| = max t (-t)` is `⊤` at both infinities.
-/
import proofs.«155192_j82746839925071_2_alg».proof.Pre_finite_inputs
import proofs.«155192_j82746839925071_2_alg».proof.Proof.Spec
import Idealize.ShloMosaic.Lib.ReduceAll

noncomputable section

namespace Cert.Spec

open Idealize.ShloMosaic

/-- The rank-zero shape has one index. -/
instance subsingleton_scalar_idx : Subsingleton Cert.Pre_finite_inputs.S_.Idx := ⟨fun a b => funext fun d => d.elim0⟩

/-- The word `0x7F800000` is plus infinity. -/
theorem inf_word_eq_top : Ideal.ofBits .f32 0x7F800000#32 = ⊤ := by simp [Ideal.ofBits, Ideal.ieee]

/-- An extended real whose absolute value is below `⊤` is a real number. -/
theorem real_of_abs_lt_top {t : EReal} (h : max t (-t) < ⊤) : ∃ a : ℝ, t = (a : EReal) := by
  have hne_top : t ≠ ⊤ := by
    intro e
    rw [e, max_eq_left le_top] at h
    exact lt_irrefl _ h
  have hne_bot : t ≠ ⊥ := by
    intro e
    rw [e, EReal.neg_bot, max_eq_right le_top] at h
    exact lt_irrefl _ h
  exact ⟨t.toReal, (EReal.coe_toReal hne_top hne_bot).symm⟩

/-- If the printed precondition holds of `x` then every entry of `x` is real. -/
theorem finite_of_pre [Cert.Pre_finite_inputs.Facts] (x : SX.Idx → EReal) (lab : SL.Idx → BitVec 32)
    (h : Cert.Pre_finite_inputs.fn (F := Ideal) x lab = (fun _ => 1#1)) : Finite x := by
  intro i
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [inf_word_eq_top] at hc
  have hlt : max (x i) (-(x i)) < ⊤ := by
    by_contra hn
    simp [Ideal.cmp, hn] at hc
  exact real_of_abs_lt_top hlt

end Cert.Spec

end
-- ==== Proof.RefStages.lean ====
/-
  The reference program's values read at explicit indices, stage by stage, at the ideal instance: the rows' squared
  norms, the inner products, the clamped squared distances and the distances, as the functions of the two argument
  arrays that the specification names.
-/
import proofs.«155192_j82746839925071_2_alg».proof.Proof.Gen.ReferenceIdeal.Read
import proofs.«155192_j82746839925071_2_alg».proof.Proof.Spec
import Idealize.ShloMosaic.Lib.IdealHost
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx
open Classical

/-- The two argument arrays' types: embeddings and labels. -/
abbrev XTy : Type := (⟨S8192x128, .f32⟩ : BufTy).Contents (Elt Ideal)
abbrev LTy : Type := (⟨S8192, .i32⟩ : BufTy).Contents (Elt Ideal)

/-! ### Bit patterns and one-bit words -/

/-- The pattern of negative infinity is the bottom element, of positive infinity the top. -/
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]

/-- A decided proposition's bit is one exactly when the proposition holds. -/
theorem ofBool_decide_eq_one (p : Prop) [Decidable p] : BitVec.ofBool (decide p) = 1#1 ↔ p := by
  by_cases h : p <;> simp [h]

/-- The comparison "greater than" on the extended reals, as a bit. -/
theorem cmp_ogt_eq_one (a b : EReal) : Ideal.cmp .ogt a b = 1#1 ↔ b < a := by
  unfold Ideal.cmp; exact ofBool_decide_eq_one _

/-- A selection on a bit is an if-then-else on the proposition the bit decides. -/
theorem select_of_iff {α : Type} (b : BitVec 1) (p : Prop) [Decidable p] (hb : b = 1#1 ↔ p) (u v : α) :
    Scalar.select b u v = if p then u else v := by
  unfold Scalar.select
  by_cases h : p
  · rw [if_pos h]; exact if_pos (hb.mpr h)
  · rw [if_neg h]; exact if_neg (fun e => h (hb.mp e))

/-! ### Squared norms, inner products, distances -/

variable (x : XTy) (lab : LTy)

/-- A row's squared norm. -/
theorem v1_at (r : Fin 8192) : val_main_v1 (F := Ideal) x (ix1 r) = Cert.Spec.sq x r := by
  rw [val_main_v1_apply, val_main_cst_apply, Ideal.ofBits_def, Ideal.ofBits_zero_f32, zero_add]
  unfold Cert.Spec.sq
  refine Finset.sum_congr rfl fun k _ => ?_
  rw [val_main_v0_apply, Ideal.mulf_def]
  have e : idx_main_v1 (ix1 r) k = ix2 r k := funext fun a => Fin.ext (by
    match a with | ⟨0, _⟩ => rfl | ⟨1, _⟩ => rfl)
  rw [e]

/-- The sum of two rows' squared norms. -/
theorem v6_at (r c : Fin 8192) : val_main_v6 (F := Ideal) x (ix2 r c) = Cert.Spec.sq x r + Cert.Spec.sq x c := by
  rw [val_main_v6_apply, Ideal.addf_def, val_main_v4_apply, val_main_v2_apply, val_main_v5_apply, val_main_v3_apply]
  have e1 : idx_main_v2 (idx_main_v4 (ix2 r c)) = ix1 r := funext fun a => Fin.ext (by
    match a with | ⟨0, _⟩ => rfl)
  have e2 : idx_main_v3 (idx_main_v5 (ix2 r c)) = ix1 c := funext fun a => Fin.ext (by
    match a with | ⟨0, _⟩ => rfl)
  rw [e1, e2, v1_at, v1_at]

/-- Two rows' inner product. -/
theorem v8_at (r c : Fin 8192) : val_main_v8 (F := Ideal) x (ix2 r c) = Cert.Spec.dot x r c := by
  rw [val_main_v8_apply]
  unfold Cert.Spec.dot
  refine Finset.sum_congr rfl fun k _ => ?_
  rw [val_main_v7_apply]
  have e1 : lidx_main_v8 (ix2 r c) k = ix2 r k := funext fun a => Fin.ext (by
    match a with | ⟨0, _⟩ => rfl | ⟨1, _⟩ => rfl)
  have e2 : idx_main_v7 (ridx_main_v8 (ix2 r c) k) = ix2 c k := funext fun a => Fin.ext (by
    match a with | ⟨0, _⟩ => rfl | ⟨1, _⟩ => rfl)
  rw [e1, e2]

/-- The clamped squared distance. -/
theorem v13_at (r c : Fin 8192) : val_main_v13 (F := Ideal) x (ix2 r c) = Cert.Spec.d2 x r c := by
  rw [val_main_v13_apply, Ideal.maximumf_def, val_main_v11_apply, Ideal.subf_def, val_main_v10_apply, Ideal.mulf_def,
    val_main_v9_apply, val_main_cst_0_apply, Ideal.ofBits_def, val_main_v12_apply, val_main_cst_1_apply, Ideal.ofBits_def,
    Ideal.ofBits_zero_f32, v6_at, v8_at]
  rfl

/-- The distance: the root of the clamped squared distance where that is positive, else zero. -/
theorem v20_at (r c : Fin 8192) : val_main_v20 (F := Ideal) x (ix2 r c) = Cert.Spec.dist x r c := by
  have h15 : val_main_v15 (F := Ideal) x (ix2 r c) = 1#1 ↔ 0 < Cert.Spec.d2 x r c := by
    rw [val_main_v15_apply, Ideal.cmpf_def, v13_at, val_main_v14_apply, val_main_cst_2_apply, Ideal.ofBits_def,
      Ideal.ofBits_zero_f32]
    exact cmp_ogt_eq_one _ _
  have h18 : val_main_v18 (F := Ideal) x (ix2 r c) = 1#1 ↔ 0 < Cert.Spec.d2 x r c := by
    rw [val_main_v18_apply, Ideal.cmpf_def, v13_at, val_main_v17_apply, val_main_cst_4_apply, Ideal.ofBits_def,
      Ideal.ofBits_zero_f32]
    exact cmp_ogt_eq_one _ _
  rw [val_main_v20_apply, select_of_iff _ _ h18, val_main_v19_apply, Ideal.hostUnary_sqrt_def, val_main_v16_apply,
    select_of_iff _ _ h15, v13_at, val_main_call0_v1_apply, val_main_call0_v0_apply, val_main_cst_3_apply, Ideal.ofBits_def,
    Ideal.ofBits_one_f32, val_main_call1_v1_apply, val_main_call1_v0_apply, val_main_cst_5_apply, Ideal.ofBits_def,
    Ideal.ofBits_zero_f32]
  unfold Cert.Spec.dist
  by_cases h : 0 < Cert.Spec.d2 x r c
  · simp only [if_pos h]
  · simp only [if_neg h]

end Cert.ReferenceIdeal.RefValue

end
-- ==== Proof.RefRows.lean ====
/-
  The reference program's masks, its four reductions along a row, and each row's hinge term and count, read at
  explicit indices at the ideal instance, as the specification's quantities mined on distances.
-/
import proofs.«155192_j82746839925071_2_alg».proof.Proof.RefStages

noncomputable section

namespace Cert.ReferenceIdeal.RefValue

open Cert.ReferenceIdeal Cert.ReferenceIdeal.Gen Cert.ReferenceIdeal.Read
open Idealize.ShloMosaic Idealize.ShloMosaic.ValueIdx
open Classical

/-! ### One-bit words -/

theorem andi_eq_one (a b : BitVec 1) : IntOp.andi a b = 1#1 ↔ a = 1#1 ∧ b = 1#1 := by
  revert a b; decide
theorem ori_eq_one (a b : BitVec 1) : IntOp.ori a b = 1#1 ↔ a = 1#1 ∨ b = 1#1 := by
  revert a b; decide
theorem not_eq_one (a : BitVec 1) : ~~~a = 1#1 ↔ ¬ a = 1#1 := by
  revert a; decide

/-- A fold of "or" from the zero bit is one exactly when some entry is one. -/
theorem fold_ori_eq_one {ι : Type} (s : Finset ι) (g : ι → BitVec 1) :
    s.fold IntOp.ori 0#1 g = 1#1 ↔ ∃ c ∈ s, g c = 1#1 := by
  induction s using Finset.induction_on with
  | empty => simp
  | insert a s ha ih =>
    rw [Finset.fold_insert ha, ori_eq_one, ih]
    constructor
    · rintro (h | ⟨c, hc, h⟩)
      · exact ⟨a, Finset.mem_insert_self _ _, h⟩
      · exact ⟨c, Finset.mem_insert_of_mem hc, h⟩
    · rintro ⟨c, hc, h⟩
      rcases Finset.mem_insert.mp hc with rfl | hc
      · exact Or.inl h
      · exact Or.inr ⟨c, hc, h⟩

/-! ### A reduction along a row is the fold over the row -/

/-- For a commutative and associative operation, the reduction of a square array over its second axis is, at row
    `r`, the fold from the initial value over the row's entries. -/
theorem reduce_row {α : Type} (f : α → α → α) [Std.Commutative f] [Std.Associative f]
    (y : S8192x8192.Idx → α) (init : S_.Idx → α) (r : Fin 8192) :
    Host.reduce f y init reducesTo_S8192x8192_S8192_d1 h_S_ (ix1 r)
      = (Finset.univ : Finset (Fin 8192)).fold f (init (Shape.Idx.first h_S_)) (fun c => y (ix2 r c)) := by
  rw [Host.reduce_eq_fold_single f y init reducesTo_S8192x8192_S8192_d1 (by decide) h_S_]
  refine congrArg (fun g => Finset.fold f (init (Shape.Idx.first h_S_)) g Finset.univ) (funext fun c => ?_)
  exact congrArg y (funext fun a => Fin.ext (by match a with | ⟨0, _⟩ => rfl | ⟨1, _⟩ => rfl))

/-! ### The masks -/

variable (x : XTy) (lab : LTy)

/-- Two rows carry one label. -/
theorem v25_at (r c : Fin 8192) : val_main_v25 (F := Ideal) lab (ix2 r c) = 1#1 ↔ Cert.Spec.same lab r c := by
  rw [val_main_v25_apply, val_main_v23_apply, val_main_v21_apply, val_main_v24_apply, val_main_v22_apply]
  have e1 : idx_main_v21 (idx_main_v23 (ix2 r c)) = ix1 r := funext fun a => Fin.ext (by
    match a with | ⟨0, _⟩ => rfl)
  have e2 : idx_main_v22 (idx_main_v24 (ix2 r c)) = ix1 c := funext fun a => Fin.ext (by
    match a with | ⟨0, _⟩ => rfl)
  rw [e1, e2]
  exact IntOp.cmpi_eq

/-- The distance is positive. -/
theorem v27_at (r c : Fin 8192) : val_main_v27 (F := Ideal) x (ix2 r c) = 1#1 ↔ 0 < Cert.Spec.dist x r c := by
  rw [val_main_v27_apply, Ideal.cmpf_def, v20_at, val_main_v26_apply, val_main_cst_6_apply, Ideal.ofBits_def,
    Ideal.ofBits_zero_f32]
  exact cmp_ogt_eq_one _ _

/-- A positive: one label, at positive distance. -/
theorem v28_at (r c : Fin 8192) : val_main_v28 (F := Ideal) x lab (ix2 r c) = 1#1 ↔ Cert.Spec.posD x lab r c := by
  rw [val_main_v28_apply, andi_eq_one, v25_at, v27_at]
  rfl

/-- A negative: another label. -/
theorem v29_at (r c : Fin 8192) : val_main_v29 (F := Ideal) lab (ix2 r c) = 1#1 ↔ ¬ Cert.Spec.same lab r c := by
  rw [val_main_v29_apply, not_eq_one, v25_at]

/-! ### The row's maximum over positives and minimum over negatives -/

/-- What a row offers to its maximum: a positive's distance, else the bottom element. -/
theorem v30_at (r c : Fin 8192) :
    val_main_v30 (F := Ideal) x lab (ix2 r c) = if Cert.Spec.posD x lab r c then Cert.Spec.dist x r c else ⊥ := by
  rw [val_main_v30_apply, select_of_iff _ _ (v28_at x lab r c), v20_at, val_main_call2_v1_apply, val_main_call2_v0_apply,
    val_main_cst_7_apply, Ideal.ofBits_def, ofBits_neg_inf_f32]

/-- What a row offers to its minimum: a negative's distance, else the top element. -/
theorem v32_at (r c : Fin 8192) :
    val_main_v32 (F := Ideal) x lab (ix2 r c) = if Cert.Spec.same lab r c then ⊤ else Cert.Spec.dist x r c := by
  rw [val_main_v32_apply, select_of_iff _ _ (v29_at lab r c), v20_at, val_main_call3_v1_apply, val_main_call3_v0_apply,
    val_main_cst_9_apply, Ideal.ofBits_def, ofBits_pos_inf_f32]
  by_cases h : Cert.Spec.same lab r c
  · rw [if_neg (not_not_intro h), if_pos h]
  · rw [if_pos h, if_neg h]

/-- The largest distance to a positive. -/
theorem v31_at (r : Fin 8192) : val_main_v31 (F := Ideal) x lab (ix1 r) = Cert.Spec.hpD x lab r := by
  unfold val_main_v31
  rw [reduce_row, val_main_cst_8_apply, Ideal.ofBits_def, ofBits_neg_inf_f32]
  unfold Cert.Spec.hpD
  simp only [v30_at]
  rfl

/-- The smallest distance to a negative. -/
theorem v33_at (r : Fin 8192) : val_main_v33 (F := Ideal) x lab (ix1 r) = Cert.Spec.hnD x lab r := by
  unfold val_main_v33
  rw [reduce_row, val_main_cst_10_apply, Ideal.ofBits_def, ofBits_pos_inf_f32]
  unfold Cert.Spec.hnD
  simp only [v32_at]
  rfl

/-! ### Which rows count -/

/-- The row has a positive. -/
theorem v34_at (r : Fin 8192) : val_main_v34 (F := Ideal) x lab (ix1 r) = 1#1 ↔ ∃ c, Cert.Spec.posD x lab r c := by
  unfold val_main_v34
  rw [reduce_row, val_main_c_apply, fold_ori_eq_one]
  simp only [Finset.mem_univ, true_and]
  exact exists_congr fun c => v28_at x lab r c

/-- The row has a negative. -/
theorem v35_at (r : Fin 8192) : val_main_v35 (F := Ideal) lab (ix1 r) = 1#1 ↔ ∃ c, ¬ Cert.Spec.same lab r c := by
  unfold val_main_v35
  rw [reduce_row, val_main_c_11_apply, fold_ori_eq_one]
  simp only [Finset.mem_univ, true_and]
  exact exists_congr fun c => v29_at lab r c

/-- The row counts: it has a positive and a negative. -/
theorem v36_at (r : Fin 8192) : val_main_v36 (F := Ideal) x lab (ix1 r) = 1#1 ↔ Cert.Spec.validD x lab r := by
  rw [val_main_v36_apply, andi_eq_one, v34_at, v35_at]
  rfl

/-! ### Each row's hinge term and count -/

/-- The hinge of the two mined distances, before the row is asked whether it counts. -/
theorem v41_at (r : Fin 8192) : val_main_v41 (F := Ideal) x lab (ix1 r)
    = max (Cert.Spec.hpD x lab r - Cert.Spec.hnD x lab r + Cert.Spec.margin) 0 := by
  rw [val_main_v41_apply, Ideal.maximumf_def, val_main_v39_apply, Ideal.addf_def, val_main_v37_apply, Ideal.subf_def,
    v31_at, v33_at, val_main_v38_apply, val_main_cst_12_apply, Ideal.ofBits_def, val_main_v40_apply,
    val_main_cst_13_apply, Ideal.ofBits_def, Ideal.ofBits_zero_f32]
  rfl

/-- The row's hinge term. -/
theorem v42_at (r : Fin 8192) : val_main_v42 (F := Ideal) x lab (ix1 r) = Cert.Spec.perD x lab r := by
  rw [val_main_v42_apply, select_of_iff _ _ (v36_at x lab r), v41_at, val_main_call4_v1_apply, val_main_call4_v0_apply,
    val_main_cst_14_apply, Ideal.ofBits_def, Ideal.ofBits_zero_f32]
  unfold Cert.Spec.perD
  by_cases h : Cert.Spec.validD x lab r
  · simp only [if_pos h]
  · simp only [if_neg h]

/-- The row's count: one if it counts, else zero. -/
theorem v43_at (r : Fin 8192) : val_main_v43 (F := Ideal) x lab (ix1 r) = Cert.Spec.cntD x lab r := by
  rw [val_main_v43_apply]
  unfold Cert.Spec.cntD
  by_cases h : Cert.Spec.validD x lab r
  · rw [if_pos h, (v36_at x lab r).mpr h]
    show (((1#1 : BitVec 1).toNat : ℝ) : EReal) = 1
    norm_num
  · rw [if_neg h, eq_zero_of_ne_one (fun e => h ((v36_at x lab r).mp e))]
    show (((0#1 : BitVec 1).toNat : ℝ) : EReal) = 0
    norm_num

end Cert.ReferenceIdeal.RefValue

end
-- ==== Proof.RefLoss.lean ====
/-
  The reference program's result at the ideal instance: the sum of the rows' hinge terms over the number of counted
  rows, at least one, which is the specification's loss mined on distances.
-/
import proofs.«155192_j82746839925071_2_alg».proof.Proof.RefRows

noncomputable section

namespace Cert.ReferenceIdeal.RefValue

open Cert.ReferenceIdeal Cert.ReferenceIdeal.Gen Cert.ReferenceIdeal.Read
open Idealize.ShloMosaic Idealize.ShloMosaic.ValueIdx
open Classical

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x : XTy) (lab : LTy)

/-- The number of counted rows. -/
theorem v44_at (i : S_.Idx) : val_main_v44 (F := Ideal) x lab i = ∑ r : Fin 8192, Cert.Spec.cntD x lab r := by
  rw [val_main_v44_apply, val_main_cst_15_apply, Ideal.ofBits_def, Ideal.ofBits_zero_f32, zero_add, sum_idx1]
  exact Finset.sum_congr rfl fun r _ => v43_at x lab r

/-- The sum of the rows' hinge terms. -/
theorem v46_at (i : S_.Idx) : val_main_v46 (F := Ideal) x lab i = ∑ r : Fin 8192, Cert.Spec.perD x lab r := by
  rw [val_main_v46_apply, val_main_cst_17_apply, Ideal.ofBits_def, Ideal.ofBits_zero_f32, zero_add, sum_idx1]
  exact Finset.sum_congr rfl fun r _ => v42_at x lab r

/-- The reference's result is the loss mined on distances, at its one index. -/
theorem ref_loss : val_main_v47 (F := Ideal) x lab = fun _ => Cert.Spec.lossD x lab := by
  funext i
  rw [val_main_v47_apply, Ideal.hostDivf_def, v46_at, val_main_v45_apply, Ideal.maximumf_def, v44_at,
    val_main_cst_16_apply, Ideal.ofBits_def, Ideal.ofBits_one_f32]
  rfl

end Cert.ReferenceIdeal.RefValue

end
-- ==== Proof.ClaimsRef.lean ====
/-
  The reference program's half of the claims at the extended reals: it runs and leaves its argument arrays unchanged,
  and its result array ends at the loss mined on distances of its two argument arrays.
-/
import proofs.«155192_j82746839925071_2_alg».proof.Defs
import proofs.«155192_j82746839925071_2_alg».proof.Proof.Gen.ReferenceIdeal
import proofs.«155192_j82746839925071_2_alg».proof.Proof.Gen.ReferenceIdeal.Read
import proofs.«155192_j82746839925071_2_alg».proof.Proof.Gen.Pre_finite_inputs
import proofs.«155192_j82746839925071_2_alg».proof.Proof.RefLoss

noncomputable section

namespace Cert.Proof.Claims

open Idealize.ShloMosaic Idealize.SL.Sem

/-- The reference program runs from any memory with zero counters and its argument arrays end unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The reference program's run: on every device the result array ends at the loss mined on distances of the two
    argument arrays, which end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v47)
            = (fun _ => Cert.Spec.lossD
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1)))
          ∧ r.2.mem ((c.tc : Thread Cert.ReferenceIdeal.nD Cert.ReferenceIdeal.τ).loc Cert.ReferenceIdeal.main_arg0)
              = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m' ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.Read.val_main_v47_eq m' c).trans
        (Cert.ReferenceIdeal.RefValue.ref_loss _ _)), (h c).2⟩)
    (Cert.ReferenceIdeal.Value.run (F := Ideal) m' ρ')

end Cert.Proof.Claims

end
-- ==== Proof.Preserves.lean ====
/-
  The ledger of the ideal pass: each of the six named constants the idealized kernel prints is, by the program's table,
  the infinity its entry records, at every shape and as a scalar.
-/
import proofs.«155192_j82746839925071_2_alg».proof.Defs
import Idealize.ShloMosaic.PureOps.IdealRules

noncomputable section

namespace Cert.Proof.Claims

open Idealize.ShloMosaic

/-- The six ledger entries: the table gives `"neg_big"` and `"neg_big_2"` the value `⊥` and `"pos_big"` and
    `"pos_big_2"` the value `⊤`, and the printed constants are those values at the extended reals. -/
theorem preserves : Cert.preserves_Kernel_KernelIdeal :=
  ⟨IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big_2" .f32 0xEFA18F08#32 ⊥ rfl,
   IdealRules.named_const.statement Cert.KernelIdeal.κ "pos_big_2" .f32 0x6FA18F08#32 ⊤ rfl⟩

end Cert.Proof.Claims

end
-- ==== Proof.Claims.lean ====
/-
  The five claims of the certificate, assembled.

  Both kernels' frames are the hand-proved run of @main (the seven host operations, the pipelined region with its 64
  grid points, the nine host operations after it) with everything but the two arguments forgotten; the reference's is
  its run read back. The idealization's ledger is six named constants, each the value the table gives its name.
  The algebraic claim: the idealized kernel's run ends with its result at the host tail's value of the two written-back
  arrays, which row by row hold the hinge term and the count of the loss mined on squared distances; the reference's
  run ends at the loss mined on distances; under finite inputs the two are one number, which is the witness.
-/
import proofs.«155192_j82746839925071_2_alg».proof.Defs
import proofs.«155192_j82746839925071_2_alg».proof.Proof.KILaunch
import proofs.«155192_j82746839925071_2_alg».proof.Proof.KBLaunch
import proofs.«155192_j82746839925071_2_alg».proof.Proof.KIResult
import proofs.«155192_j82746839925071_2_alg».proof.Proof.KIRow
import proofs.«155192_j82746839925071_2_alg».proof.Proof.LossMath
import proofs.«155192_j82746839925071_2_alg».proof.Proof.RefFinite
import proofs.«155192_j82746839925071_2_alg».proof.Proof.ClaimsRef
import proofs.«155192_j82746839925071_2_alg».proof.Proof.Preserves
import proofs.«155192_j82746839925071_2_alg».proof.Proof.Gen.Kernel
import proofs.«155192_j82746839925071_2_alg».proof.Proof.Gen.KernelIdeal
import proofs.«155192_j82746839925071_2_alg».proof.Proof.Gen.ReferenceIdeal
import proofs.«155192_j82746839925071_2_alg».proof.Proof.Gen.Pre_finite_inputs

noncomputable section

namespace Cert.Proof.Claims

open Idealize.ShloMosaic Idealize.SL.Sem

/-- The word-level kernel runs to the end, faults nowhere, and leaves both arguments as launched. -/
theorem frame_k : Cert.frame_Kernel := fun m ρ _ =>
  (θ_run (Cert.Kernel.defs (F := Bits)) _ _).mono (fun _ h c => ⟨(h c).2.1, (h c).2.2⟩) (Cert.Kernel.Hand.run_main (F := Bits) m ρ)

/-- So does the idealized kernel. -/
theorem frame_ki : Cert.frame_KernelIdeal := fun m ρ _ =>
  (θ_run (Cert.KernelIdeal.defs (F := Ideal)) _ _).mono (fun _ h c => ⟨(h c).2.1, (h c).2.2⟩) (Cert.KernelIdeal.Hand.run_main (F := Ideal) m ρ)

/-- Under finite inputs both idealized programs end at one number: the loss mined on distances. The kernel's run gives
    the loss mined on squared distances (the two written-back arrays row by row, then the host tail), which finiteness
    turns into the other; the reference's run gives the loss mined on distances directly. -/
theorem algebraic : Cert.algebraic_KernelIdeal_ReferenceIdeal := by
  intro m ρ m' ρ' hpre hagree
  refine ⟨fun c => fun _ => Cert.Spec.lossD (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨(h c).1.trans ?_, (h c).2.1, (h c).2.2⟩)
      (Cert.KernelIdeal.Hand.run_main (F := Ideal) m ρ)
    refine (Cert.KernelIdeal.HandResult.kernel_result m c
      (fun i r => Cert.KernelIdeal.HandValue.perAt_row m c i r _ _) (fun i r => Cert.KernelIdeal.HandValue.cntAt_row m c i r _ _)).trans ?_
    funext _
    exact Cert.Spec.lossSq_eq_lossD _ _ (Cert.Spec.finite_of_pre _ _ (hpre c))
  · refine (θ_run (Cert.ReferenceIdeal.defs (F := Ideal)) _ _).mono (fun r h c => ⟨(h c).1.trans ?_, (h c).2.1, (h c).2.2⟩) (ref_run m' ρ')
    rw [(hagree c).1, (hagree c).2]
    rfl

end Cert.Proof.Claims

end
-- ==== Proof.lean ====
/-
  The proof of `Cert.Claim`: a Pallas kernel for the triplet loss with hardest-positive / hardest-negative mining over 8192
  embeddings of width 128 against its jnp reference, equal as extended reals under finite inputs.

  The kernel tiles the 8192 x 8192 matrix of clamped squared distances (by the polarization identity, the inner products
  on the matrix unit) into an 8 x 8 grid of 1024 x 1024 tiles and keeps, per anchor row, a running maximum over positives
  (same label, another row, positive squared distance) and a running minimum over negatives along a row of the grid; at the
  last tile of the row it takes the two square roots, forms the hinge term and the row's count, and the host divides the
  terms' sum by the count, at least one. The reference materializes the distances, masks, and reduces each row at once.
  At the ideal instance the two differ by the order of "root" and "maximum / minimum", by the explicit exclusion of the
  diagonal (whose squared distance is exactly zero for finite inputs), and by how a row is counted (the running values have
  left their initial infinities, against a positive and a negative exist): Proof/Spec.lean states both arrangements,
  Proof/LossMath.lean proves them equal under finiteness, Proof/RefLoss.lean reads the reference's run as the one,
  Proof/KIRow.lean, Proof/KIArrays.lean and Proof/KITail.lean read the kernel's run as the other, Proof/KILaunch.lean and
  Proof/KBLaunch.lean run the two kernels, and Proof/Claims.lean assembles the five claims.
-/
import proofs.«155192_j82746839925071_2_alg».proof.Defs
import proofs.«155192_j82746839925071_2_alg».proof.Proof.Claims
import proofs.«155192_j82746839925071_2_alg».proof.Proof.Gen.Kernel
import proofs.«155192_j82746839925071_2_alg».proof.Proof.Gen.KernelIdeal
import proofs.«155192_j82746839925071_2_alg».proof.Proof.Gen.ReferenceIdeal
import proofs.«155192_j82746839925071_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
